-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14_1)) (v1 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_1) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v206) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4 : Shape := ⟨2, ![2048, 4]⟩
abbrev S4x2048x1024 : Shape := ⟨3, ![4, 2048, 1024]⟩
abbrev S1024x4 : Shape := ⟨2, ![1024, 4]⟩
abbrev S1024 : Shape := ⟨1, ![1024]⟩
abbrev S4x3072x1024 : Shape := ⟨3, ![4, 3072, 1024]⟩
abbrev S4x3072 : Shape := ⟨2, ![4, 3072]⟩
abbrev S256x1024 : Shape := ⟨2, ![256, 1024]⟩
abbrev S256 : Shape := ⟨1, ![256]⟩
abbrev S_ : Shape := ⟨0, ![]⟩

class Facts : Prop where
  bcast_S_S2048x4 : S_.BroadcastsInDim S2048x4 (![] : Fin 0 → Fin S2048x4.rank)
  reducesTo_S2048x4_S_d0_1 : S2048x4.ReducesTo [0, 1] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024x4 : S_.BroadcastsInDim S1024x4 (![] : Fin 0 → Fin S1024x4.rank)
  reducesTo_S1024x4_S_d0_1 : S1024x4.ReducesTo [0, 1] S_
  bcast_S_S1024 : S_.BroadcastsInDim S1024 (![] : Fin 0 → Fin S1024.rank)
  reducesTo_S1024_S_d0 : S1024.ReducesTo [0] S_
  bcast_S_S4x3072x1024 : S_.BroadcastsInDim S4x3072x1024 (![] : Fin 0 → Fin S4x3072x1024.rank)
  reducesTo_S4x3072x1024_S_d0_1_2 : S4x3072x1024.ReducesTo [0, 1, 2] S_
  bcast_S_S4x3072 : S_.BroadcastsInDim S4x3072 (![] : Fin 0 → Fin S4x3072.rank)
  reducesTo_S4x3072_S_d0_1 : S4x3072.ReducesTo [0, 1] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S4x3072 .f32) (main_arg8 : FVec F S256x1024 .f32) (main_arg9 : FVec F S256 .f32) (main_v33 : IVec S_ 1) : IVec S_ 1 :=
  let main_v34 : FVec F S4x3072 .f32 := Host.absf main_arg7
  let main_cst_12 : FVec F S_ .f32 := constant S_ .f32 0x7F800000#32
  let main_v35 : FVec F S4x3072 .f32 := broadcastInDim S4x3072 ![] bcast_S_S4x3072 main_cst_12
  let main_v36 : IVec S4x3072 1 := cmpf .olt main_v34 main_v35
  let main_c_13 : IVec S_ 1 := constantI S_ 1 1#1
  let main_v37 : IVec S_ 1 := (fun x v => Host.reduce IntOp.andi x v reducesTo_S4x3072_S_d0_1 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S4x3072x1024 .f32) (main_arg5 : FVec F S4x3072x1024 .f32) (main_arg6 : FVec F S4x3072 .f32) (main_arg7 : FVec F S4x3072 .f32) (main_arg8 : FVec F S256x1024 .f32) (main_arg9 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4x3072x1024 .f32 := Host.absf main_arg4
  let main_cst_6 : FVec F S_ .f32 := constant S_ .f32 0x7F800000#32
  let main_v20 : FVec F S4x3072x1024 .f32 := broadcastInDim S4x3072x1024 ![] bcast_S_S4x3072x1024 main_cst_6
  let main_v21 : IVec S4x3072x1024 1 := cmpf .olt main_v19 main_v20
  let main_c_7 : IVec S_ 1 := constantI S_ 1 1#1
  let main_v22 : IVec S_ 1 := (fun x v => Host.reduce IntOp.andi x v reducesTo_S4x3072x1024_S_d0_1_2 h_S_) main_v21 main_c_7
  let main_v23 : IVec S_ 1 := andi main_v18 main_v22
  let main_v24 : FVec F S4x3072x1024 .f32 := Host.absf main_arg5
  let main_cst_8 : FVec F S_ .f32 := constant S_ .f32 0x7F800000#32
  let main_v25 : FVec F S4x3072x1024 .f32 := broadcastInDim S4x3072x1024 ![] bcast_S_S4x3072x1024 main_cst_8
  let main_v26 : IVec S4x3072x1024 1 := cmpf .olt main_v24 main_v25
  let main_c_9 : IVec S_ 1 := constantI S_ 1 1#1
  let main_v27 : IVec S_ 1 := (fun x v => Host.reduce IntOp.andi x v reducesTo_S4x3072x1024_S_d0_1_2 h_S_) main_v26 main_c_9
  let main_v28 : IVec S_ 1 := andi main_v23 main_v27
  let main_v29 : FVec F S4x3072 .f32 := Host.absf main_arg6
  let main_cst_10 : FVec F S_ .f32 := constant S_ .f32 0x7F800000#32
  let main_v30 : FVec F S4x3072 .f32 := broadcastInDim S4x3072 ![] bcast_S_S4x3072 main_cst_10
  let main_v31 : IVec S4x3072 1 := cmpf .olt main_v29 main_v30
  let main_c_11 : IVec S_ 1 := constantI S_ 1 1#1
  let main_v32 : IVec S_ 1 := (fun x v => Host.reduce IntOp.andi x v reducesTo_S4x3072_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x4 .f32) (main_arg1 : FVec F S4x2048x1024 .f32) (main_arg2 : FVec F S1024x4 .f32) (main_arg3 : FVec F S1024 .f32) (main_arg4 : FVec F S4x3072x1024 .f32) (main_arg5 : FVec F S4x3072x1024 .f32) (main_arg6 : FVec F S4x3072 .f32) (main_arg7 : FVec F S4x3072 .f32) (main_arg8 : FVec F S256x1024 .f32) (main_arg9 : FVec F S256 .f32) : IVec S_ 1 :=
  let main_v0 : FVec F S2048x4 .f32 := Host.absf main_arg0
  let main_cst : FVec F S_ .f32 := constant S_ .f32 0x7F800000#32
  let main_v1 : FVec F S2048x4 .f32 := broadcastInDim S2048x4 ![] bcast_S_S2048x4 main_cst
  let main_v2 : IVec S2048x4 1 := cmpf .olt main_v0 main_v1
  let main_c : IVec S_ 1 := constantI S_ 1 1#1
  let main_v3 : IVec S_ 1 := (fun x v => Host.reduce IntOp.andi x v reducesTo_S2048x4_S_d0_1 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S2048x4 : Shape := ⟨2, ![2048, 4]⟩
abbrev S4x2048x1024 : Shape := ⟨3, ![4, 2048, 1024]⟩
abbrev S1024x4 : Shape := ⟨2, ![1024, 4]⟩
abbrev S1024 : Shape := ⟨1, ![1024]⟩
abbrev S4x3072x1024 : Shape := ⟨3, ![4, 3072, 1024]⟩
abbrev S4x3072 : Shape := ⟨2, ![4, 3072]⟩
abbrev S256x1024 : Shape := ⟨2, ![256, 1024]⟩
abbrev S256 : Shape := ⟨1, ![256]⟩
abbrev S4x1024 : Shape := ⟨2, ![4, 1024]⟩
abbrev S2048x1024 : Shape := ⟨2, ![2048, 1024]⟩
abbrev S1x1024 : Shape := ⟨2, ![1, 1024]⟩
abbrev S4x1024x3072 : Shape := ⟨3, ![4, 1024, 3072]⟩
abbrev S4x1x3072 : Shape := ⟨3, ![4, 1, 3072]⟩
abbrev S1024x256 : Shape := ⟨2, ![1024, 256]⟩
abbrev S1x256 : Shape := ⟨2, ![1, 256]⟩
abbrev S2048x256 : Shape := ⟨2, ![2048, 256]⟩
abbrev S64x1024 : Shape := ⟨2, ![64, 1024]⟩
abbrev S4x64x1024 : Shape := ⟨3, ![4, 64, 1024]⟩
abbrev S64x256 : Shape := ⟨2, ![64, 256]⟩
abbrev S1x64x1024 : Shape := ⟨3, ![1, 64, 1024]⟩
abbrev S1x1024x3072 : Shape := ⟨3, ![1, 1024, 3072]⟩
abbrev S1024x3072 : Shape := ⟨2, ![1024, 3072]⟩
abbrev S64x3072 : Shape := ⟨2, ![64, 3072]⟩
abbrev S1x1x3072 : Shape := ⟨3, ![1, 1, 3072]⟩
abbrev S1x3072 : Shape := ⟨2, ![1, 3072]⟩

abbrev nBuf : Space → Nat
  | .hbm => 26
  | .vmem => 14
  | .smem => 0
  | _ => 0

abbrev bufTy : (tb : Table) → Fin (tcTables nBuf tb) → BufTy
  | .hbm, ⟨0, _⟩ => ⟨S2048x4, .f32⟩
  | .hbm, ⟨1, _⟩ => ⟨S4x2048x1024, .f32⟩
  | .hbm, ⟨2, _⟩ => ⟨S1024x4, .f32⟩
  | .hbm, ⟨3, _⟩ => ⟨S1024, .f32⟩
  | .hbm, ⟨4, _⟩ => ⟨S4x3072x1024, .f32⟩
  | .hbm, ⟨5, _⟩ => ⟨S4x3072x1024, .f32⟩
  | .hbm, ⟨6, _⟩ => ⟨S4x3072, .f32⟩
  | .hbm, ⟨7, _⟩ => ⟨S4x3072, .f32⟩
  | .hbm, ⟨8, _⟩ => ⟨S256x1024, .f32⟩
  | .hbm, ⟨9, _⟩ => ⟨S256, .f32⟩
  | .hbm, ⟨10, _⟩ => ⟨S4x1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S4x1024x3072, .f32⟩
  | .hbm, ⟨16, _⟩ => ⟨S4x1024x3072, .bf16⟩
  | .hbm, ⟨17, _⟩ => ⟨S4x1024x3072, .f32⟩
  | .hbm, ⟨18, _⟩ => ⟨S4x1024x3072, .bf16⟩
  | .hbm, ⟨19, _⟩ => ⟨S4x1x3072, .f32⟩
  | .hbm, ⟨20, _⟩ => ⟨S4x1x3072, .f32⟩
  | .hbm, ⟨21, _⟩ => ⟨S1024x256, .f32⟩
  | .hbm, ⟨22, _⟩ => ⟨S1024x256, .bf16⟩
  | .hbm, ⟨23, _⟩ => ⟨S1x256, .f32⟩
  | .hbm, ⟨24, _⟩ => ⟨S4x2048x1024, .f32⟩
  | .hbm, ⟨25, _⟩ => ⟨S2048x256, .f32⟩
  | .local _ .vmem, ⟨0, _⟩ => ⟨S64x1024, .f32⟩
  | .local _ .vmem, ⟨1, _⟩ => ⟨S64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x1024x3072, .bf16⟩
  | .local _ .vmem, ⟨5, _⟩ => ⟨S4x1024x3072, .bf16⟩
  | .local _ .vmem, ⟨6, _⟩ => ⟨S4x1x3072, .f32⟩
  | .local _ .vmem, ⟨7, _⟩ => ⟨S4x1x3072, .f32⟩
  | .local _ .vmem, ⟨8, _⟩ => ⟨S1024x256, .bf16⟩
  | .local _ .vmem, ⟨9, _⟩ => ⟨S1x256, .f32⟩
  | .local _ .vmem, ⟨10, _⟩ => ⟨S4x64x1024, .f32⟩
  | .local _ .vmem, ⟨11, _⟩ => ⟨S4x64x1024, .f32⟩
  | .local _ .vmem, ⟨12, _⟩ => ⟨S64x256, .f32⟩
  | .local _ .vmem, ⟨13, _⟩ => ⟨S64x256, .f32⟩
  | _, _ => ⟨S2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x4_S4x1024_1_0 : S1024x4.Transposes [1, 0] S4x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  transposes_S4x3072x1024_S4x1024x3072_0_2_1 : S4x3072x1024.Transposes [0, 2, 1] S4x1024x3072
  bitsLt_bf16_f32 : FTy.bits .bf16 < FTy.bits .f32
  shapeCasts_S4x3072_S4x1x3072 : S4x3072.ShapeCasts S4x1x3072
  transposes_S256x1024_S1024x256_1_0 : S256x1024.Transposes [1, 0] S1024x256
  shapeCasts_S256_S1x256 : S256.ShapeCasts S1x256
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S4x64x1024_S1x64x1024_0_0_0 : ∀ a, (![0, 0, 0] : Fin 3 → Nat) a + S1x64x1024.size a ≤ S4x64x1024.size a
  h_S1x64x1024 : 0 < S1x64x1024.numel
  shapeCasts_S1x64x1024_S64x1024 : S1x64x1024.ShapeCasts S64x1024
  inb_S4x1024x3072_S1x1024x3072_0_0_0 : ∀ a, (![0, 0, 0] : Fin 3 → Nat) a + S1x1024x3072.size a ≤ S4x1024x3072.size a
  h_S1x1024x3072 : 0 < S1x1024x3072.numel
  shapeCasts_S1x1024x3072_S1024x3072 : S1x1024x3072.ShapeCasts S1024x3072
  inb_S4x1x3072_S1x1x3072_0_0_0 : ∀ a, (![0, 0, 0] : Fin 3 → Nat) a + S1x1x3072.size a ≤ S4x1x3072.size a
  h_S1x1x3072 : 0 < S1x1x3072.numel
  shapeCasts_S1x1x3072_S1x3072 : S1x1x3072.ShapeCasts S1x3072
  broadcasts_S1x3072_S64x3072 : S1x3072.Broadcasts S64x3072
  slices_S64x3072_o0_0_S64x1024 : S64x3072.Slices ![0, 0] S64x1024
  slices_S64x3072_o0_1024_S64x1024 : S64x3072.Slices ![0, 1024] S64x1024
  slices_S64x3072_o0_2048_S64x1024 : S64x3072.Slices ![0, 2048] S64x1024
  shapeCasts_S64x1024_S1x64x1024 : S64x1024.ShapeCasts S1x64x1024
  inb_S4x64x1024_S1x64x1024_1_0_0 : ∀ a, (![1, 0, 0] : Fin 3 → Nat) a + S1x64x1024.size a ≤ S4x64x1024.size a
  inb_S4x1024x3072_S1x1024x3072_1_0_0 : ∀ a, (![1, 0, 0] : Fin 3 → Nat) a + S1x1024x3072.size a ≤ S4x1024x3072.size a
  inb_S4x1x3072_S1x1x3072_1_0_0 : ∀ a, (![1, 0, 0] : Fin 3 → Nat) a + S1x1x3072.size a ≤ S4x1x3072.size a
  inb_S4x64x1024_S1x64x1024_2_0_0 : ∀ a, (![2, 0, 0] : Fin 3 → Nat) a + S1x64x1024.size a ≤ S4x64x1024.size a
  inb_S4x1024x3072_S1x1024x3072_2_0_0 : ∀ a, (![2, 0, 0] : Fin 3 → Nat) a + S1x1024x3072.size a ≤ S4x1024x3072.size a
  inb_S4x1x3072_S1x1x3072_2_0_0 : ∀ a, (![2, 0, 0] : Fin 3 → Nat) a + S1x1x3072.size a ≤ S4x1x3072.size a
  inb_S4x64x1024_S1x64x1024_3_0_0 : ∀ a, (![3, 0, 0] : Fin 3 → Nat) a + S1x64x1024.size a ≤ S4x64x1024.size a
  inb_S4x1024x3072_S1x1024x3072_3_0_0 : ∀ a, (![3, 0, 0] : Fin 3 → Nat) a + S1x1024x3072.size a ≤ S4x1024x3072.size a
  inb_S4x1x3072_S1x1x3072_3_0_0 : ∀ a, (![3, 0, 0] : Fin 3 → Nat) a + S1x1x3072.size a ≤ S4x1x3072.size a
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S2048x4_S4x1024_S2048x1024_1_0_0_1_n_n_wf : DotDims.WF S2048x4 S4x1024 S2048x1024 [1] [0] [0] [1] [] []
  dot_S64x1024_S1024x3072_S64x3072_1_0_0_1_n_n_wf : DotDims.WF S64x1024 S1024x3072 S64x3072 [1] [0] [0] [1] [] []
  dot_S64x1024_S1024x256_S64x256_1_0_0_1_n_n_wf : DotDims.WF S64x1024 S1024x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S2048x1024.size a
  hwx0_0 : ∀ i : grid0.Coords, EltTy.bits .f32 = 32 ∨ (Rect.block (s := S2048x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x1024.size a ≤ S4x2048x1024.size a
  hwx0_1 : ∀ i : grid0.Coords, EltTy.bits .f32 = 32 ∨ (Rect.block (s := S4x2048x1024) S4x64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024x3072.size a ≤ S4x1024x3072.size a
  hwx0_2 : ∀ i : grid0.Coords, EltTy.bits .bf16 = 32 ∨ (Rect.block (s := S4x1024x3072) S4x1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x3072.size a ≤ S4x1024x3072.size a
  hwx0_3 : ∀ i : grid0.Coords, EltTy.bits .bf16 = 32 ∨ (Rect.block (s := S4x1024x3072) S4x1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1x3072.size a ≤ S4x1x3072.size a
  hwx0_4 : ∀ i : grid0.Coords, EltTy.bits .f32 = 32 ∨ (Rect.block (s := S4x1x3072) S4x1x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1x3072.size a ≤ S4x1x3072.size a
  hwx0_5 : ∀ i : grid0.Coords, EltTy.bits .f32 = 32 ∨ (Rect.block (s := S4x1x3072) S4x1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x256.size a
  hwx0_6 : ∀ i : grid0.Coords, EltTy.bits .bf16 = 32 ∨ (Rect.block (s := S1024x256) S1024x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x64x1024.size a ≤ S4x2048x1024.size a
  hwx0_8 : ∀ i : grid0.Coords, EltTy.bits .f32 = 32 ∨ (Rect.block (s := S4x2048x1024) S4x64x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S2048x256.size a
  hwx0_9 : ∀ i : grid0.Coords, EltTy.bits .f32 = 32 ∨ (Rect.block (s := S2048x256) S64x256.size (cc0_transform_9 i) (hinb0_9 i)).WholeWords (EltTy.packing .f32)

variable [Facts₀]

def dot_S2048x4_S4x1024_S2048x1024_1_0_0_1_n_n : DotDims S2048x4 S4x1024 S2048x1024 where
  lhsContracting := [1]
  rhsContracting := [0]
  lhsNonContracting := [0]
  rhsNonContracting := [1]
  lhsBatch := []
  rhsBatch := []
  wf := dot_S2048x4_S4x1024_S2048x1024_1_0_0_1_n_n_wf
def dot_S64x1024_S1024x3072_S64x3072_1_0_0_1_n_n : DotDims S64x1024 S1024x3072 S64x3072 where
  lhsContracting := [1]
  rhsContracting := [0]
  lhsNonContracting := [0]
  rhsNonContracting := [1]
  lhsBatch := []
  rhsBatch := []
  wf := dot_S64x1024_S1024x3072_S64x3072_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf

abbrev win0_0 : Pipeline.Window sig grid0 :=
  Pipeline.Window.ofSpec (Memref.whole main_v4) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4x1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4x1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14_0) S4x64x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_1) S64x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x4 : Shape := ⟨2, ![2048, 4]⟩
abbrev S4x2048x1024 : Shape := ⟨3, ![4, 2048, 1024]⟩
abbrev S1024x4 : Shape := ⟨2, ![1024, 4]⟩
abbrev S1024 : Shape := ⟨1, ![1024]⟩
abbrev S4x3072x1024 : Shape := ⟨3, ![4, 3072, 1024]⟩
abbrev S4x3072 : Shape := ⟨2, ![4, 3072]⟩
abbrev S256x1024 : Shape := ⟨2, ![256, 1024]⟩
abbrev S256 : Shape := ⟨1, ![256]⟩
abbrev S4x1024 : Shape := ⟨2, ![4, 1024]⟩
abbrev S2048x1024 : Shape := ⟨2, ![2048, 1024]⟩
abbrev S1x1024 : Shape := ⟨2, ![1, 1024]⟩
abbrev S1x2048x1024 : Shape := ⟨3, ![1, 2048, 1024]⟩
abbrev S1x3072x1024 : Shape := ⟨3, ![1, 3072, 1024]⟩
abbrev S3072x1024 : Shape := ⟨2, ![3072, 1024]⟩
abbrev S1x3072 : Shape := ⟨2, ![1, 3072]⟩
abbrev S3072 : Shape := ⟨1, ![3072]⟩
abbrev S1024x3072 : Shape := ⟨2, ![1024, 3072]⟩
abbrev S2048x3072 : Shape := ⟨2, ![2048, 3072]⟩
abbrev S_ : Shape := ⟨0, ![]⟩
abbrev S1024x256 : Shape := ⟨2, ![1024, 256]⟩
abbrev S2048x256 : Shape := ⟨2, ![2048, 256]⟩
abbrev S1x256 : Shape := ⟨2, ![1, 256]⟩

abbrev nBuf : Space → Nat
  | .hbm => 237
  | .vmem => 0
  | .smem => 0
  | _ => 0

abbrev hbmTy0_0 (i : Nat) : BufTy := match i % 128 with
  | 0 => ⟨S2048x4, .f32⟩
  | 1 => ⟨S4x2048x1024, .f32⟩
  | 2 => ⟨S1024x4, .f32⟩
  | 3 => ⟨S1024, .f32⟩
  | 4 => ⟨S4x3072x1024, .f32⟩
  | 5 => ⟨S4x3072x1024, .f32⟩
  | 6 => ⟨S4x3072, .f32⟩
  | 7 => ⟨S4x3072, .f32⟩
  | 8 => ⟨S256x1024, .f32⟩
  | 9 => ⟨S256, .f32⟩
  | 10 => ⟨S4x1024, .f32⟩
  | 11 => ⟨S2048x1024, .f32⟩
  | 12 => ⟨S1x1024, .f32⟩
  | 13 => ⟨S2048x1024, .f32⟩
  | 14 => ⟨S2048x1024, .f32⟩
  | 15 => ⟨S1x2048x1024, .f32⟩
  | 16 => ⟨S2048x1024, .f32⟩
  | 17 => ⟨S1x3072x1024, .f32⟩
  | 18 => ⟨S3072x1024, .f32⟩
  | 19 => ⟨S1x3072x1024, .f32⟩
  | 20 => ⟨S3072x1024, .f32⟩
  | 21 => ⟨S1x3072, .f32⟩
  | 22 => ⟨S3072, .f32⟩
  | 23 => ⟨S1x3072, .f32⟩
  | 24 => ⟨S3072, .f32⟩
  | 25 => ⟨S1024x3072, .f32⟩
  | 26 => ⟨S2048x3072, .f32⟩
  | 27 => ⟨S1x3072, .f32⟩
  | 28 => ⟨S2048x3072, .f32⟩
  | 29 => ⟨S2048x3072, .f32⟩
  | 30 => ⟨S1024x3072, .f32⟩
  | 31 => ⟨S2048x3072, .f32⟩
  | 32 => ⟨S1x3072, .f32⟩
  | 33 => ⟨S2048x3072, .f32⟩
  | 34 => ⟨S2048x3072, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S_, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S1x2048x1024, .f32⟩
  | 69 => ⟨S2048x1024, .f32⟩
  | 70 => ⟨S1x3072x1024, .f32⟩
  | 71 => ⟨S3072x1024, .f32⟩
  | 72 => ⟨S1x3072x1024, .f32⟩
  | 73 => ⟨S3072x1024, .f32⟩
  | 74 => ⟨S1x3072, .f32⟩
  | 75 => ⟨S3072, .f32⟩
  | 76 => ⟨S1x3072, .f32⟩
  | 77 => ⟨S3072, .f32⟩
  | 78 => ⟨S1024x3072, .f32⟩
  | 79 => ⟨S2048x3072, .f32⟩
  | 80 => ⟨S1x3072, .f32⟩
  | 81 => ⟨S2048x3072, .f32⟩
  | 82 => ⟨S2048x3072, .f32⟩
  | 83 => ⟨S1024x3072, .f32⟩
  | 84 => ⟨S2048x3072, .f32⟩
  | 85 => ⟨S1x3072, .f32⟩
  | 86 => ⟨S2048x3072, .f32⟩
  | 87 => ⟨S2048x3072, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S2048x1024, .f32⟩
  | 94 => ⟨S2048x1024, .f32⟩
  | 95 => ⟨S2048x1024, .f32⟩
  | 96 => ⟨S2048x1024, .f32⟩
  | 97 => ⟨S_, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S2048x1024, .f32⟩
  | 104 => ⟨S2048x1024, .f32⟩
  | 105 => ⟨S2048x1024, .f32⟩
  | 106 => ⟨S_, .f32⟩
  | 107 => ⟨S2048x1024, .f32⟩
  | 108 => ⟨S2048x1024, .f32⟩
  | 109 => ⟨S_, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S_, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S1x2048x1024, .f32⟩
  | 122 => ⟨S2048x1024, .f32⟩
  | 123 => ⟨S1x3072x1024, .f32⟩
  | 124 => ⟨S3072x1024, .f32⟩
  | 125 => ⟨S1x3072x1024, .f32⟩
  | 126 => ⟨S3072x1024, .f32⟩
  | 127 => ⟨S1x3072, .f32⟩
  | _ => ⟨S2048x4, .f32⟩

abbrev hbmTy0_1 (i : Nat) : BufTy := match i % 128 with
  | 0 => ⟨S3072, .f32⟩
  | 1 => ⟨S1x3072, .f32⟩
  | 2 => ⟨S3072, .f32⟩
  | 3 => ⟨S1024x3072, .f32⟩
  | 4 => ⟨S2048x3072, .f32⟩
  | 5 => ⟨S1x3072, .f32⟩
  | 6 => ⟨S2048x3072, .f32⟩
  | 7 => ⟨S2048x3072, .f32⟩
  | 8 => ⟨S1024x3072, .f32⟩
  | 9 => ⟨S2048x3072, .f32⟩
  | 10 => ⟨S1x3072, .f32⟩
  | 11 => ⟨S2048x3072, .f32⟩
  | 12 => ⟨S2048x3072, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S_, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S_, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S1x2048x1024, .f32⟩
  | 47 => ⟨S2048x1024, .f32⟩
  | 48 => ⟨S1x3072x1024, .f32⟩
  | 49 => ⟨S3072x1024, .f32⟩
  | 50 => ⟨S1x3072x1024, .f32⟩
  | 51 => ⟨S3072x1024, .f32⟩
  | 52 => ⟨S1x3072, .f32⟩
  | 53 => ⟨S3072, .f32⟩
  | 54 => ⟨S1x3072, .f32⟩
  | 55 => ⟨S3072, .f32⟩
  | 56 => ⟨S1024x3072, .f32⟩
  | 57 => ⟨S2048x3072, .f32⟩
  | 58 => ⟨S1x3072, .f32⟩
  | 59 => ⟨S2048x3072, .f32⟩
  | 60 => ⟨S2048x3072, .f32⟩
  | 61 => ⟨S1024x3072, .f32⟩
  | 62 => ⟨S2048x3072, .f32⟩
  | 63 => ⟨S1x3072, .f32⟩
  | 64 => ⟨S2048x3072, .f32⟩
  | 65 => ⟨S2048x3072, .f32⟩
  | 66 => ⟨S2048x1024, .f32⟩
  | 67 => ⟨S2048x1024, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S_, .f32⟩
  | 94 => ⟨S2048x1024, .f32⟩
  | 95 => ⟨S2048x1024, .f32⟩
  | 96 => ⟨S2048x1024, .f32⟩
  | 97 => ⟨S2048x1024, .f32⟩
  | 98 => ⟨S2048x1024, .f32⟩
  | 99 => ⟨S1024x256, .f32⟩
  | 100 => ⟨S2048x256, .f32⟩
  | 101 => ⟨S1x256, .f32⟩
  | 102 => ⟨S2048x256, .f32⟩
  | 103 => ⟨S2048x256, .f32⟩
  | 104 => ⟨S1x2048x1024, .f32⟩
  | 105 => ⟨S1x2048x1024, .f32⟩
  | 106 => ⟨S1x2048x1024, .f32⟩
  | 107 => ⟨S1x2048x1024, .f32⟩
  | 108 => ⟨S4x2048x1024, .f32⟩
  | _ => ⟨S2048x4, .f32⟩

abbrev hbmTy (i : Nat) : BufTy := match i / 128 with
  | 0 => hbmTy0_0 i
  | 1 => hbmTy0_1 i
  | _ => ⟨S2048x4, .f32⟩

abbrev bufTy : (tb : Table) → Fin (tcTables nBuf tb) → BufTy
  | .hbm, ⟨i, _⟩ => hbmTy i
  | _, _ => ⟨S2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_4 : Ref sig .tc := ⟨.hbm, 97, rfl⟩
abbrev main_v82 : Ref sig .tc := ⟨.hbm, 98, rfl⟩
abbrev main_v83 : Ref sig .tc := ⟨.hbm, 99, rfl⟩
abbrev main_cst_5 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_6 : Ref sig .tc := ⟨.hbm, 106, rfl⟩
abbrev main_v89 : Ref sig .tc := ⟨.hbm, 107, rfl⟩
abbrev main_v90 : Ref sig .tc := ⟨.hbm, 108, rfl⟩
abbrev main_cst_7 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_8 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_9 : Ref sig .tc := ⟨.hbm, 150, rfl⟩
abbrev main_v130 : Ref sig .tc := ⟨.hbm, 151, rfl⟩
abbrev main_v131 : Ref sig .tc := ⟨.hbm, 152, rfl⟩
abbrev main_cst_10 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_cst_11 : Ref sig .tc := ⟨.hbm, 159, rfl⟩
abbrev main_v137 : Ref sig .tc := ⟨.hbm, 160, rfl⟩
abbrev main_v138 : Ref sig .tc := ⟨.hbm, 161, rfl⟩
abbrev main_cst_12 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_cst_13 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_cst_14 : Ref sig .tc := ⟨.hbm, 203, rfl⟩
abbrev main_v178 : Ref sig .tc := ⟨.hbm, 204, rfl⟩
abbrev main_v179 : Ref sig .tc := ⟨.hbm, 205, rfl⟩
abbrev main_cst_15 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_cst_16 : Ref sig .tc := ⟨.hbm, 212, rfl⟩
abbrev main_v185 : Ref sig .tc := ⟨.hbm, 213, rfl⟩
abbrev main_v186 : Ref sig .tc := ⟨.hbm, 214, rfl⟩
abbrev main_cst_17 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_cst_18 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩

abbrev nD : Nat := 1
abbrev τ : Topo := Topo.v7x

variable {F : FTy → Type} [FloatOps F]

class Facts₀ : Prop where
  transposes_S1024x4_S4x1024_1_0 : S1024x4.Transposes [1, 0] S4x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  slices_S4x2048x1024_S1x2048x1024_0_0_0 : S4x2048x1024.Slices ![0, 0, 0] S1x2048x1024
  shapeCasts_S1x2048x1024_S2048x1024 : S1x2048x1024.ShapeCasts S2048x1024
  slices_S4x3072x1024_S1x3072x1024_0_0_0 : S4x3072x1024.Slices ![0, 0, 0] S1x3072x1024
  shapeCasts_S1x3072x1024_S3072x1024 : S1x3072x1024.ShapeCasts S3072x1024
  slices_S4x3072_S1x3072_0_0 : S4x3072.Slices ![0, 0] S1x3072
  shapeCasts_S1x3072_S3072 : S1x3072.ShapeCasts S3072
  transposes_S3072x1024_S1024x3072_1_0 : S3072x1024.Transposes [1, 0] S1024x3072
  bcast_S3072_S1x3072_1 : S3072.BroadcastsInDim S1x3072 (![1] : Fin 1 → Fin S1x3072.rank)
  bcast_S1x3072_S2048x3072_0_1 : S1x3072.BroadcastsInDim S2048x3072 (![0, 1] : Fin 2 → Fin S2048x3072.rank)
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  bcast_S_S2048x1024 : S_.BroadcastsInDim S2048x1024 (![] : Fin 0 → Fin S2048x1024.rank)
  slices_S4x2048x1024_S1x2048x1024_1_0_0 : S4x2048x1024.Slices ![1, 0, 0] S1x2048x1024
  slices_S4x3072x1024_S1x3072x1024_1_0_0 : S4x3072x1024.Slices ![1, 0, 0] S1x3072x1024
  slices_S4x3072_S1x3072_1_0 : S4x3072.Slices ![1, 0] S1x3072
  slices_S4x2048x1024_S1x2048x1024_2_0_0 : S4x2048x1024.Slices ![2, 0, 0] S1x2048x1024
  slices_S4x3072x1024_S1x3072x1024_2_0_0 : S4x3072x1024.Slices ![2, 0, 0] S1x3072x1024
  slices_S4x3072_S1x3072_2_0 : S4x3072.Slices ![2, 0] S1x3072
  slices_S4x2048x1024_S1x2048x1024_3_0_0 : S4x2048x1024.Slices ![3, 0, 0] S1x2048x1024
  slices_S4x3072x1024_S1x3072x1024_3_0_0 : S4x3072x1024.Slices ![3, 0, 0] S1x3072x1024
  slices_S4x3072_S1x3072_3_0 : S4x3072.Slices ![3, 0] S1x3072
  transposes_S256x1024_S1024x256_1_0 : S256x1024.Transposes [1, 0] S1024x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S2048x1024_S1x2048x1024_1_2 : S2048x1024.BroadcastsInDim S1x2048x1024 (![1, 2] : Fin 2 → Fin S1x2048x1024.rank)
  concatenates_S1x2048x1024_S1x2048x1024_S1x2048x1024_S1x2048x1024_S4x2048x1024_d0 : Shape.Concatenates [S1x2048x1024, S1x2048x1024, S1x2048x1024, S1x2048x1024] S4x2048x1024 0
  dot_S2048x4_S4x1024_S2048x1024_1_0_0_1_n_n_wf : DotDims.WF S2048x4 S4x1024 S2048x1024 [1] [0] [0] [1] [] []
  dot_S2048x1024_S1024x3072_S2048x3072_1_0_0_1_n_n_wf : DotDims.WF S2048x1024 S1024x3072 S2048x3072 [1] [0] [0] [1] [] []
  dot_S2048x1024_S1024x256_S2048x256_1_0_0_1_n_n_wf : DotDims.WF S2048x1024 S1024x256 S2048x256 [1] [0] [0] [1] [] []

variable [Facts₀]

def dot_S2048x4_S4x1024_S2048x1024_1_0_0_1_n_n : DotDims S2048x4 S4x1024 S2048x1024 where
  lhsContracting := [1]
  rhsContracting := [0]
  lhsNonContracting := [0]
  rhsNonContracting := [1]
  lhsBatch := []
  rhsBatch := []
  wf := dot_S2048x4_S4x1024_S2048x1024_1_0_0_1_n_n_wf
def dot_S2048x1024_S1024x3072_S2048x3072_1_0_0_1_n_n : DotDims S2048x1024 S1024x3072 S2048x3072 where
  lhsContracting := [1]
  rhsContracting := [0]
  lhsNonContracting := [0]
  rhsNonContracting := [1]
  lhsBatch := []
  rhsBatch := []
  wf := dot_S2048x1024_S1024x3072_S2048x3072_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

class Facts : Prop extends Facts₀ where

variable [Facts]
-- ==== Proof.Spec.lean ====
/-
  A stack of four gated recurrent cells and a linear read-out, row by row.

  One batch row is processed independently of every other. A layer takes the row `x` of the layer below and the row `h`
  of its own previous state, forms two affine images of width `3·1024` — `gi = x·Wiᵀ + bi`, `gh = h·Whᵀ + bh` — and reads
  them as three gates of width `1024`: `r = σ(gi_r + gh_r)`, `z = σ(gi_z + gh_z)`, `n = tanh(gi_n + r · gh_n)`; the new
  state is `(1 - z) · n + z · h`. The first layer's input is an affine image of the row of inputs; the read-out is an
  affine image of the last layer's new state. Everything is on the extended reals, so no law of arithmetic beyond the
  definitions is used: both programs compute these very expressions.
-/
import Idealize.ShloMosaic.PureOps.Ideal.Laws
import Idealize.ShloMosaic.Lib.ValueIdx

noncomputable section

namespace Cert.Gru

open Idealize.ShloMosaic Idealize.ShloMosaic.ValueIdx
open scoped BigOperators

/-- The float word of `1.0`, as both programs spell the constant of `1 - z` and of the logistic function. -/
abbrev one : EReal := Ideal.ofBits .f32 0x3F800000#32

/-- That word denotes the real number one. -/
theorem one_word : Ideal.ofBits .f32 0x3F800000#32 = (1 : EReal) := by
  simp [Ideal.ofBits, Ideal.ieee, -EReal.coe_mul]; norm_num

/-- An affine image of a row: output `n` is the row against row `n` of the weights, plus the bias's entry `n`. -/
def aff {K N : ℕ} (x : Fin K → EReal) (W : Fin N → Fin K → EReal) (b : Fin N → EReal) (n : Fin N) : EReal :=
  (∑ k : Fin K, x k * W n k) + b n

/-- Where gate `g` (0 reset, 1 update, 2 candidate) of unit `j` sits among the `3·1024` affine outputs. -/
def gateR (j : Fin 1024) : Fin 3072 := ⟨j.val, by omega⟩
def gateZ (j : Fin 1024) : Fin 3072 := ⟨1024 + j.val, by omega⟩
def gateN (j : Fin 1024) : Fin 3072 := ⟨2048 + j.val, by omega⟩

/-- One cell on one row: unit `j` of the new state. -/
def cell (x h : Fin 1024 → EReal) (Wi Wh : Fin 3072 → Fin 1024 → EReal) (bi bh : Fin 3072 → EReal) (j : Fin 1024) : EReal :=
  (one - Ideal.logistic (aff x Wi bi (gateZ j) + aff h Wh bh (gateZ j)))
      * Ideal.tanh (aff x Wi bi (gateN j) + Ideal.logistic (aff x Wi bi (gateR j) + aff h Wh bh (gateR j)) * aff h Wh bh (gateN j))
    + Ideal.logistic (aff x Wi bi (gateZ j) + aff h Wh bh (gateZ j)) * h j

/-- The logistic function written out with the word of one: `1 / (1 + e^(-u))`. -/
theorem div_one_add_exp_neg (u : EReal) : Ideal.div one (one + Ideal.exp (-u)) = Ideal.logistic u := by
  unfold one
  rw [one_word]
  rfl

/-- The weights of the stack: each layer's two weight matrices (row `n` of `wi l` holds output `n`'s weights) and biases,
    and the read-out's. -/
structure Weights where
  wi : Fin 4 → Fin 3072 → Fin 1024 → EReal
  wh : Fin 4 → Fin 3072 → Fin 1024 → EReal
  bi : Fin 4 → Fin 3072 → EReal
  bh : Fin 4 → Fin 3072 → EReal
  dw : Fin 256 → Fin 1024 → EReal
  db : Fin 256 → EReal

namespace Weights

-- What one batch row is given: its projected input row `x0` and its four previous states `h`.
variable (Wt : Weights) (x0 : Fin 1024 → EReal) (h : Fin 4 → Fin 1024 → EReal)

/-- Layer `l` on a row: from the row `x` of the layer below and the layer's previous state `hh`. -/
def step (l : Fin 4) (x hh : Fin 1024 → EReal) : Fin 1024 → EReal :=
  cell x hh (Wt.wi l) (Wt.wh l) (Wt.bi l) (Wt.bh l)

def h1 : Fin 1024 → EReal := Wt.step 0 x0 (h 0)
def h2 : Fin 1024 → EReal := Wt.step 1 (Wt.h1 x0 h) (h 1)
def h3 : Fin 1024 → EReal := Wt.step 2 (Wt.h2 x0 h) (h 2)
def h4 : Fin 1024 → EReal := Wt.step 3 (Wt.h3 x0 h) (h 3)

/-- The four new states of a row, by layer. -/
def hs (l : Fin 4) : Fin 1024 → EReal :=
  if l.val = 0 then Wt.h1 x0 h else if l.val = 1 then Wt.h2 x0 h else if l.val = 2 then Wt.h3 x0 h else Wt.h4 x0 h

/-- The read-out of a row. -/
def out : Fin 256 → EReal := aff (Wt.h4 x0 h) Wt.dw Wt.db

end Weights

end Cert.Gru

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.KernelForm.lean ====
/-
  The kernel's spelling of an affine image and of one recurrent cell, over a tile of rows, read at an index.

  A tile of `R` rows is multiplied on the matrix unit by a weight matrix stored input-major (`[K, N]`: column `n` holds output
  `n`'s weights), into a zero accumulator, and a one-row bias is laid along every row. Narrowing the operands to a
  shorter float format changes nothing on the extended reals. Entry `(p, n)` is therefore row `p` of the tile against
  column `n` of the weights, plus the bias's entry `n`. The cell slices two such images of width `3·1024` into its three
  gates and combines them lane by lane.
-/
import proofs.«165582_j62508954026437_2_alg».proof.Proof.Spec
import proofs.«165582_j62508954026437_2_alg».proof.Proof.LibMatDot
import Idealize.ShloMosaic.Lib.Pipeline.Value
import Idealize.ShloMosaic.Lib.ValueLayout

noncomputable section

namespace Cert.Gru

open Idealize.ShloMosaic Idealize.ShloMosaic.ValueIdx
open scoped BigOperators

variable {F : FTy → Type} [FloatOps F] {R K N : ℕ}

/-- `x · W + b` over a tile: the product into the zero accumulator, the one-row bias laid along the rows. -/
def tileAff (wf : DotDims.WF ⟨2, ![R, K]⟩ ⟨2, ![K, N]⟩ ⟨2, ![R, N]⟩ [1] [0] [0] [1] [] [])
    (hb : (⟨2, ![1, N]⟩ : Shape).Broadcasts ⟨2, ![R, N]⟩) (hlt : FTy.bits .bf16 < FTy.bits .f32)
    (x : FVec F ⟨2, ![R, K]⟩ .f32) (W : FVec F ⟨2, ![K, N]⟩ .bf16) (b : FVec F ⟨2, ![1, N]⟩ .f32) : FVec F ⟨2, ![R, N]⟩ .f32 :=
  addf (matmul (Cert.Lib.matDot wf) none (truncf .bf16 x hlt) W (constant ⟨2, ![R, N]⟩ .f32 0x00000000#32))
    (broadcastTo ⟨2, ![R, N]⟩ b hb)

theorem tileAff_apply (wf : DotDims.WF ⟨2, ![R, K]⟩ ⟨2, ![K, N]⟩ ⟨2, ![R, N]⟩ [1] [0] [0] [1] [] [])
    (hb : (⟨2, ![1, N]⟩ : Shape).Broadcasts ⟨2, ![R, N]⟩) (hlt : FTy.bits .bf16 < FTy.bits .f32)
    (x : FVec Ideal ⟨2, ![R, K]⟩ .f32) (W : FVec Ideal ⟨2, ![K, N]⟩ .bf16) (b : FVec Ideal ⟨2, ![1, N]⟩ .f32)
    (p : Fin R) (n : Fin N) :
    tileAff wf hb hlt x W b (ix2 p n)
      = aff (fun k => x (ix2 p k)) (fun n k => W (ix2 k n)) (fun n => b (ix2 (0 : Fin 1) n)) n := by
  unfold tileAff aff
  rw [addf_apply, broadcastTo_1b_ab_apply]
  refine congrArg (· + b (ix2 (0 : Fin 1) n)) ?_
  exact Cert.Lib.matmul_plain_zero_apply wf none (truncf .bf16 x hlt) W p n

/-- The lane-by-lane part of a cell, from its two affine images `gi`, `gh` and the previous state `h`. -/
def cellOf (s0 : (⟨2, ![R, 3072]⟩ : Shape).Slices ![0, 0] ⟨2, ![R, 1024]⟩)
    (s1 : (⟨2, ![R, 3072]⟩ : Shape).Slices ![0, 1024] ⟨2, ![R, 1024]⟩)
    (s2 : (⟨2, ![R, 3072]⟩ : Shape).Slices ![0, 2048] ⟨2, ![R, 1024]⟩)
    (gi gh : FVec F ⟨2, ![R, 3072]⟩ .f32) (h : FVec F ⟨2, ![R, 1024]⟩ .f32) : FVec F ⟨2, ![R, 1024]⟩ .f32 :=
  addf
    (mulf
      (subf (broadcast ⟨2, ![R, 1024]⟩ (Scalar.ofBits .f32 0x3F800000#32))
        (logistic (addf (extractStridedSlice ⟨2, ![R, 1024]⟩ ![0, 1024] gi s1) (extractStridedSlice ⟨2, ![R, 1024]⟩ ![0, 1024] gh s1))))
      (tanh (addf (extractStridedSlice ⟨2, ![R, 1024]⟩ ![0, 2048] gi s2)
        (mulf (logistic (addf (extractStridedSlice ⟨2, ![R, 1024]⟩ ![0, 0] gi s0) (extractStridedSlice ⟨2, ![R, 1024]⟩ ![0, 0] gh s0)))
          (extractStridedSlice ⟨2, ![R, 1024]⟩ ![0, 2048] gh s2)))))
    (mulf (logistic (addf (extractStridedSlice ⟨2, ![R, 1024]⟩ ![0, 1024] gi s1) (extractStridedSlice ⟨2, ![R, 1024]⟩ ![0, 1024] gh s1))) h)

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

theorem cellOf_apply (s0 : (⟨2, ![R, 3072]⟩ : Shape).Slices ![0, 0] ⟨2, ![R, 1024]⟩)
    (s1 : (⟨2, ![R, 3072]⟩ : Shape).Slices ![0, 1024] ⟨2, ![R, 1024]⟩)
    (s2 : (⟨2, ![R, 3072]⟩ : Shape).Slices ![0, 2048] ⟨2, ![R, 1024]⟩)
    (gi gh : FVec Ideal ⟨2, ![R, 3072]⟩ .f32) (h : FVec Ideal ⟨2, ![R, 1024]⟩ .f32) (p : Fin R) (j : Fin 1024) :
    cellOf s0 s1 s2 gi gh h (ix2 p j)
      = (one - Ideal.logistic (gi (ix2 p (gateZ j)) + gh (ix2 p (gateZ j))))
          * Ideal.tanh (gi (ix2 p (gateN j)) + Ideal.logistic (gi (ix2 p (gateR j)) + gh (ix2 p (gateR j))) * gh (ix2 p (gateN j)))
        + Ideal.logistic (gi (ix2 p (gateZ j)) + gh (ix2 p (gateZ j))) * h (ix2 p j) := by
  unfold cellOf
  simp only [addf_apply, mulf_apply, subf_apply, broadcast_apply, logistic_at, tanh_at]
  rw [slice2_axis1_apply 1024 gi s1 p j (gateZ j) rfl, slice2_axis1_apply 1024 gh s1 p j (gateZ j) rfl,
    slice2_axis1_apply 2048 gi s2 p j (gateN j) rfl, slice2_axis1_apply 2048 gh s2 p j (gateN j) rfl,
    slice2_axis1_apply 0 gi s0 p j (gateR j) (Nat.zero_add _).symm, slice2_axis1_apply 0 gh s0 p j (gateR j) (Nat.zero_add _).symm]
  rfl

/-- One cell over a tile: both affine images by the matrix unit, then the lane-by-lane part. -/
def tileCell (wf : DotDims.WF ⟨2, ![R, 1024]⟩ ⟨2, ![1024, 3072]⟩ ⟨2, ![R, 3072]⟩ [1] [0] [0] [1] [] [])
    (hb : (⟨2, ![1, 3072]⟩ : Shape).Broadcasts ⟨2, ![R, 3072]⟩) (hlt : FTy.bits .bf16 < FTy.bits .f32)
    (s0 : (⟨2, ![R, 3072]⟩ : Shape).Slices ![0, 0] ⟨2, ![R, 1024]⟩)
    (s1 : (⟨2, ![R, 3072]⟩ : Shape).Slices ![0, 1024] ⟨2, ![R, 1024]⟩)
    (s2 : (⟨2, ![R, 3072]⟩ : Shape).Slices ![0, 2048] ⟨2, ![R, 1024]⟩)
    (x h : FVec F ⟨2, ![R, 1024]⟩ .f32) (W U : FVec F ⟨2, ![1024, 3072]⟩ .bf16) (b c : FVec F ⟨2, ![1, 3072]⟩ .f32) :
    FVec F ⟨2, ![R, 1024]⟩ .f32 :=
  cellOf s0 s1 s2 (tileAff wf hb hlt x W b) (tileAff wf hb hlt h U c) h

/-- Entry `(p, j)` of the cell over a tile is the cell on row `p`, the weights read column by column. -/
theorem tileCell_apply (wf : DotDims.WF ⟨2, ![R, 1024]⟩ ⟨2, ![1024, 3072]⟩ ⟨2, ![R, 3072]⟩ [1] [0] [0] [1] [] [])
    (hb : (⟨2, ![1, 3072]⟩ : Shape).Broadcasts ⟨2, ![R, 3072]⟩) (hlt : FTy.bits .bf16 < FTy.bits .f32)
    (s0 : (⟨2, ![R, 3072]⟩ : Shape).Slices ![0, 0] ⟨2, ![R, 1024]⟩)
    (s1 : (⟨2, ![R, 3072]⟩ : Shape).Slices ![0, 1024] ⟨2, ![R, 1024]⟩)
    (s2 : (⟨2, ![R, 3072]⟩ : Shape).Slices ![0, 2048] ⟨2, ![R, 1024]⟩)
    (x h : FVec Ideal ⟨2, ![R, 1024]⟩ .f32) (W U : FVec Ideal ⟨2, ![1024, 3072]⟩ .bf16) (b c : FVec Ideal ⟨2, ![1, 3072]⟩ .f32)
    (p : Fin R) (j : Fin 1024) :
    tileCell wf hb hlt s0 s1 s2 x h W U b c (ix2 p j)
      = cell (fun k => x (ix2 p k)) (fun k => h (ix2 p k)) (fun n k => W (ix2 k n)) (fun n k => U (ix2 k n))
          (fun n => b (ix2 (0 : Fin 1) n)) (fun n => c (ix2 (0 : Fin 1) n)) j := by
  unfold tileCell cell
  rw [cellOf_apply]
  simp only [tileAff_apply]

end Cert.Gru

end
-- ==== Proof.KernelPayload.lean ====
/-
  The kernel's body as four cells and a read-out.

  The body's arithmetic is printed as a chain of named values. Read together, the values that feed the four stores of new
  states are four uses of one cell — each on the tile below it, on its layer's slab of the stacked previous states, weights
  and biases — and the value that feeds the store of the read-out is one affine image of the last cell's result. Nothing is
  computed here: each equation holds by unfolding the names.
-/
import proofs.«165582_j62508954026437_2_alg».proof.Proof.Gen.KernelIdeal.Frame
import proofs.«165582_j62508954026437_2_alg».proof.Proof.KernelForm

noncomputable section

namespace Cert.KernelIdeal.Tile

open Cert.KernelIdeal Cert.KernelIdeal.Gen Cert.Gru Idealize.ShloMosaic

variable {F : FTy → Type} [FloatOps F]

/-- The cell over a 64-row tile, under the program's own side conditions. -/
abbrev kCell (x h : FVec F S64x1024 .f32) (W U : FVec F S1024x3072 .bf16) (b c : FVec F S1x3072 .f32) : FVec F S64x1024 .f32 :=
  tileCell Facts₀.dot_S64x1024_S1024x3072_S64x3072_1_0_0_1_n_n_wf Facts₀.broadcasts_S1x3072_S64x3072 Facts₀.bitsLt_bf16_f32
    Facts₀.slices_S64x3072_o0_0_S64x1024 Facts₀.slices_S64x3072_o0_1024_S64x1024 Facts₀.slices_S64x3072_o0_2048_S64x1024 x h W U b c

/-- A layer's operands from the loaded slabs: the leading unit axis dropped. -/
abbrev kLayer (x : FVec F S64x1024 .f32) (vh : Vec F S1x64x1024 .f32) (vW vU : Vec F S1x1024x3072 .bf16)
    (vb vc : Vec F S1x1x3072 .f32) : FVec F S64x1024 .f32 :=
  kCell x (shapeCast S64x1024 vh Facts₀.shapeCasts_S1x64x1024_S64x1024)
    (shapeCast S1024x3072 vW Facts₀.shapeCasts_S1x1024x3072_S1024x3072) (shapeCast S1024x3072 vU Facts₀.shapeCasts_S1x1024x3072_S1024x3072)
    (shapeCast S1x3072 vb Facts₀.shapeCasts_S1x1x3072_S1x3072) (shapeCast S1x3072 vc Facts₀.shapeCasts_S1x1x3072_S1x3072)

theorem pay4_eq (v0 : Vec F S64x1024 .f32) (v2 : Vec F S1x64x1024 .f32) (v6 : Vec F S1x1024x3072 .bf16) (v9 : Vec F S1x1x3072 .f32)
    (v13 : Vec F S1x1024x3072 .bf16) (v16 : Vec F S1x1x3072 .f32) :
    k0_pay4 v0 v2 v6 v9 v13 v16 = kLayer (shapeCast S64x1024 v0 Facts₀.shapeCasts_S64x1024_S64x1024) v2 v6 v13 v9 v16 := rfl

theorem pay6_eq (v37 : FVec F S64x1024 .f32) (v41 : Vec F S1x64x1024 .f32) (v45 : Vec F S1x1024x3072 .bf16) (v48 : Vec F S1x1x3072 .f32)
    (v52 : Vec F S1x1024x3072 .bf16) (v55 : Vec F S1x1x3072 .f32) :
    k0_pay6 v37 v41 v45 v48 v52 v55 = kLayer v37 v41 v45 v52 v48 v55 := rfl

theorem pay14_eq (v76 : FVec F S64x1024 .f32) (v80 : Vec F S1x64x1024 .f32) (v84 : Vec F S1x1024x3072 .bf16) (v87 : Vec F S1x1x3072 .f32)
    (v91 : Vec F S1x1024x3072 .bf16) (v94 : Vec F S1x1x3072 .f32) :
    k0_pay14 (k0_pay12 v76 v80 v84 v87 v91 v94) (k0_pay13 v76 v80 v84 v87 v91 v94) = kLayer v76 v80 v84 v91 v87 v94 := rfl

theorem pay1_eq (v113 v114 : FVec F S64x1024 .f32) (v119 : Vec F S1x64x1024 .f32) (v123 : Vec F S1x1024x3072 .bf16)
    (v126 : Vec F S1x1x3072 .f32) (v130 : Vec F S1x1024x3072 .bf16) (v133 : Vec F S1x1x3072 .f32) :
    k0_pay1 (k0_pay16 v119) (k0_pay19 v113 v114 v119 v123 v126 v130 v133) (k0_pay20 v113 v114 v119 v123 v126 v130 v133)
      = kLayer (k0_pay14 v113 v114) v119 v123 v130 v126 v133 := rfl

/-- The read-out over a tile. -/
abbrev kOut (x : FVec F S64x1024 .f32) (vW : Vec F S1024x256 .bf16) (vb : Vec F S1x256 .f32) : FVec F S64x256 .f32 :=
  tileAff Facts₀.dot_S64x1024_S1024x256_S64x256_1_0_0_1_n_n_wf Facts₀.broadcasts_S1x256_S64x256 Facts₀.bitsLt_bf16_f32 x
    (shapeCast S1024x256 vW Facts₀.shapeCasts_S1024x256_S1024x256) (shapeCast S1x256 vb Facts₀.shapeCasts_S1x256_S1x256)

theorem pay2_eq (v120 v146 v152 : FVec F S64x1024 .f32) :
    k0_pay2 v120 v146 v152 = shapeCast S1x64x1024 (k0_pay1 v120 v146 v152) Facts₀.shapeCasts_S64x1024_S1x64x1024 := rfl
theorem pay15_eq (v113 v114 : FVec F S64x1024 .f32) :
    k0_pay15 v113 v114 = shapeCast S1x64x1024 (k0_pay14 v113 v114) Facts₀.shapeCasts_S64x1024_S1x64x1024 := rfl
theorem pay7_eq (v76 : FVec F S64x1024 .f32) : k0_pay7 v76 = shapeCast S1x64x1024 v76 Facts₀.shapeCasts_S64x1024_S1x64x1024 := rfl
theorem pay5_eq (v37 : FVec F S64x1024 .f32) : k0_pay5 v37 = shapeCast S1x64x1024 v37 Facts₀.shapeCasts_S64x1024_S1x64x1024 := rfl

theorem pay3_eq (v120 v146 v152 : FVec F S64x1024 .f32) (v159 : Vec F S1024x256 .bf16) (v162 : Vec F S1x256 .f32) :
    k0_pay3 v120 v146 v152 v159 v162 = kOut (k0_pay1 v120 v146 v152) v159 v162 := rfl

/-! ## The four tiles of new states and the tile of read-outs, from the blocks the body loads -/

variable (x0 : Vec F S64x1024 .f32) (x1 : Vec F S4x64x1024 .f32) (x2 x3 : Vec F S4x1024x3072 .bf16) (x4 x5 : Vec F S4x1x3072 .f32)
  (x6 : Vec F S1024x256 .bf16) (x7 : Vec F S1x256 .f32)

def L1 : FVec F S64x1024 .f32 :=
  kLayer (shapeCast S64x1024 (View.ld x0 r0_0) Facts₀.shapeCasts_S64x1024_S64x1024) (View.ld x1 r0_1) (View.ld x2 r0_2) (View.ld x3 r0_2)
    (View.ld x4 r0_3) (View.ld x5 r0_3)
def L2 : FVec F S64x1024 .f32 :=
  kLayer (L1 x0 x1 x2 x3 x4 x5) (View.ld x1 r0_4) (View.ld x2 r0_5) (View.ld x3 r0_5) (View.ld x4 r0_6) (View.ld x5 r0_6)
def L3 : FVec F S64x1024 .f32 :=
  kLayer (L2 x0 x1 x2 x3 x4 x5) (View.ld x1 r0_7) (View.ld x2 r0_8) (View.ld x3 r0_8) (View.ld x4 r0_9) (View.ld x5 r0_9)
def L4 : FVec F S64x1024 .f32 :=
  kLayer (L3 x0 x1 x2 x3 x4 x5) (View.ld x1 r0_10) (View.ld x2 r0_11) (View.ld x3 r0_11) (View.ld x4 r0_12) (View.ld x5 r0_12)

/-- The buffer of new states after the body: four slabs, each a tile with a leading unit axis. -/
theorem out8_eq : out0_8 x0 x1 x2 x3 x4 x5 x6 x7 = View.canon
    [⟨r0_10, shapeCast S1x64x1024 (L4 x0 x1 x2 x3 x4 x5) Facts₀.shapeCasts_S64x1024_S1x64x1024⟩,
     ⟨r0_7, shapeCast S1x64x1024 (L3 x0 x1 x2 x3 x4 x5) Facts₀.shapeCasts_S64x1024_S1x64x1024⟩,
     ⟨r0_4, shapeCast S1x64x1024 (L2 x0 x1 x2 x3 x4 x5) Facts₀.shapeCasts_S64x1024_S1x64x1024⟩,
     ⟨r0_1, shapeCast S1x64x1024 (L1 x0 x1 x2 x3 x4 x5) Facts₀.shapeCasts_S64x1024_S1x64x1024⟩] := by
  unfold out0_8 L4 L3 L2 L1
  simp only [pay2_eq, pay15_eq, pay7_eq, pay5_eq, pay1_eq, pay14_eq, pay6_eq, pay4_eq]

/-- The buffer of read-outs after the body. -/
theorem out9_eq : out0_9 x0 x1 x2 x3 x4 x5 x6 x7 = View.canon
    [⟨r0_15, kOut (L4 x0 x1 x2 x3 x4 x5) (View.ld x6 r0_13) (View.ld x7 r0_14)⟩] := by
  unfold out0_9 L4 L3 L2 L1
  simp only [pay3_eq, pay1_eq, pay14_eq, pay6_eq, pay4_eq]

end Cert.KernelIdeal.Tile

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.KernelTile.lean ====
/-
  A tile of the kernel's body, read at an index.

  The body is given one tile: 64 rows of projected inputs, the same 64 rows of each of the four previous states, and all
  the weights. Entry `(l, p, j)` of the buffer of new states it leaves is unit `j` of layer `l`'s new state of the tile's row
  `p`; entry `(p, o)` of the buffer of read-outs is read-out `o` of that row. Nothing of row `p`'s result depends on another
  row. The kernel's weights are stored input-major, so column `n` of a layer's matrix is what the specification calls row `n`.
-/
import proofs.«165582_j62508954026437_2_alg».proof.Proof.KernelPayload
import proofs.«165582_j62508954026437_2_alg».proof.Proof.LibSlabs
import Idealize.ShloMosaic.Lib.ValueLayout

noncomputable section

namespace Cert.KernelIdeal.Tile

open Cert.KernelIdeal Cert.KernelIdeal.Gen Cert.Gru Idealize.ShloMosaic Idealize.ShloMosaic.ValueIdx

/-! ## Zero offsets -/

theorem zeros2 : (![0, 0] : Fin 2 → Nat) = fun _ => 0 := funext fun a => by fin_cases a <;> rfl

/-! ## The tile's weights and its rows -/

variable (x0 : FVec Ideal S64x1024 .f32) (x1 : FVec Ideal S4x64x1024 .f32) (x2 x3 : FVec Ideal S4x1024x3072 .bf16)
  (x4 x5 : FVec Ideal S4x1x3072 .f32) (x6 : FVec Ideal S1024x256 .bf16) (x7 : FVec Ideal S1x256 .f32)

/-- The weights as the tile's blocks give them: the kernel's matrices are input-major, its biases one-row arrays. -/
def tw : Weights where
  wi l n k := x2 (ix3 l k n)
  wh l n k := x3 (ix3 l k n)
  bi l n := x4 (ix3 l (0 : Fin 1) n)
  bh l n := x5 (ix3 l (0 : Fin 1) n)
  dw o k := x6 (ix2 k o)
  db o := x7 (ix2 (0 : Fin 1) o)

/-- Row `p` of the tile of projected inputs, and of the four previous states. -/
abbrev xrow (p : Fin 64) : Fin 1024 → EReal := fun k => x0 (ix2 p k)
abbrev hrow (p : Fin 64) : Fin 4 → Fin 1024 → EReal := fun l k => x1 (ix3 l p k)

/-- One layer of the body at `(p, j)`, whatever the tile below it is, once its loaded slabs are known entry by entry. -/
theorem kLayer_at {l : ℕ} (hl : l < 4) (xin : FVec Ideal S64x1024 .f32) (vh : FVec Ideal S1x64x1024 .f32)
    (vW vU : FVec Ideal S1x1024x3072 .bf16) (vb vc : FVec Ideal S1x1x3072 .f32) (xr : Fin 1024 → EReal) (p : Fin 64)
    (hx : ∀ k, xin (ix2 p k) = xr k)
    (hh : ∀ k, vh (ix3 (0 : Fin 1) p k) = x1 (ix3 (⟨l, hl⟩ : Fin 4) p k))
    (hW : ∀ k n, vW (ix3 (0 : Fin 1) k n) = x2 (ix3 (⟨l, hl⟩ : Fin 4) k n))
    (hU : ∀ k n, vU (ix3 (0 : Fin 1) k n) = x3 (ix3 (⟨l, hl⟩ : Fin 4) k n))
    (hb : ∀ n, vb (ix3 (0 : Fin 1) (0 : Fin 1) n) = x4 (ix3 (⟨l, hl⟩ : Fin 4) (0 : Fin 1) n))
    (hc : ∀ n, vc (ix3 (0 : Fin 1) (0 : Fin 1) n) = x5 (ix3 (⟨l, hl⟩ : Fin 4) (0 : Fin 1) n))
    (j : Fin 1024) :
    kLayer xin vh vW vU vb vc (ix2 p j) = (tw x2 x3 x4 x5 x6 x7).step ⟨l, hl⟩ xr (hrow x1 p ⟨l, hl⟩) j := by
  refine (tileCell_apply _ _ _ _ _ _ _ _ _ _ _ _ p j).trans ?_
  unfold Weights.step tw
  simp only [shapeCast_1ab_ab_apply, hx, hh, hW, hU, hb, hc]

theorem L1_at (p : Fin 64) (j : Fin 1024) :
    L1 (F := Ideal) x0 x1 x2 x3 x4 x5 (ix2 p j) = (tw x2 x3 x4 x5 x6 x7).h1 (xrow x0 p) (hrow x1 p) j :=
  kLayer_at x1 x2 x3 x4 x5 x6 x7 (l := 0) (by omega) _ _ _ _ _ _ (xrow x0 p) p
    (fun k => (shapeCast_apply _ Facts₀.shapeCasts_S64x1024_S64x1024 (ix2 p k) (ix2 p k) rfl).trans
      (congrFun (View.ld_unit_zero (S := S64x1024) (Val := Elt Ideal) (e := .f32) zeros2 _ x0) (ix2 p k)))
    (fun k => Cert.Lib.ld_slab rfl Facts₀.inb_S4x64x1024_S1x64x1024_0_0_0 (by omega) x1 0 p k) (fun k n => Cert.Lib.ld_slab rfl Facts₀.inb_S4x1024x3072_S1x1024x3072_0_0_0 (by omega) x2 0 k n) (fun k n => Cert.Lib.ld_slab rfl Facts₀.inb_S4x1024x3072_S1x1024x3072_0_0_0 (by omega) x3 0 k n)
    (fun n => Cert.Lib.ld_slab rfl Facts₀.inb_S4x1x3072_S1x1x3072_0_0_0 (by omega) x4 0 0 n) (fun n => Cert.Lib.ld_slab rfl Facts₀.inb_S4x1x3072_S1x1x3072_0_0_0 (by omega) x5 0 0 n) j

theorem L2_at (p : Fin 64) (j : Fin 1024) :
    L2 (F := Ideal) x0 x1 x2 x3 x4 x5 (ix2 p j) = (tw x2 x3 x4 x5 x6 x7).h2 (xrow x0 p) (hrow x1 p) j :=
  kLayer_at x1 x2 x3 x4 x5 x6 x7 (l := 1) (by omega) _ _ _ _ _ _ ((tw x2 x3 x4 x5 x6 x7).h1 (xrow x0 p) (hrow x1 p)) p
    (fun k => L1_at x0 x1 x2 x3 x4 x5 x6 x7 p k)
    (fun k => Cert.Lib.ld_slab rfl Facts₀.inb_S4x64x1024_S1x64x1024_1_0_0 (by omega) x1 0 p k) (fun k n => Cert.Lib.ld_slab rfl Facts₀.inb_S4x1024x3072_S1x1024x3072_1_0_0 (by omega) x2 0 k n) (fun k n => Cert.Lib.ld_slab rfl Facts₀.inb_S4x1024x3072_S1x1024x3072_1_0_0 (by omega) x3 0 k n)
    (fun n => Cert.Lib.ld_slab rfl Facts₀.inb_S4x1x3072_S1x1x3072_1_0_0 (by omega) x4 0 0 n) (fun n => Cert.Lib.ld_slab rfl Facts₀.inb_S4x1x3072_S1x1x3072_1_0_0 (by omega) x5 0 0 n) j

theorem L3_at (p : Fin 64) (j : Fin 1024) :
    L3 (F := Ideal) x0 x1 x2 x3 x4 x5 (ix2 p j) = (tw x2 x3 x4 x5 x6 x7).h3 (xrow x0 p) (hrow x1 p) j :=
  kLayer_at x1 x2 x3 x4 x5 x6 x7 (l := 2) (by omega) _ _ _ _ _ _ ((tw x2 x3 x4 x5 x6 x7).h2 (xrow x0 p) (hrow x1 p)) p
    (fun k => L2_at x0 x1 x2 x3 x4 x5 x6 x7 p k)
    (fun k => Cert.Lib.ld_slab rfl Facts₀.inb_S4x64x1024_S1x64x1024_2_0_0 (by omega) x1 0 p k) (fun k n => Cert.Lib.ld_slab rfl Facts₀.inb_S4x1024x3072_S1x1024x3072_2_0_0 (by omega) x2 0 k n) (fun k n => Cert.Lib.ld_slab rfl Facts₀.inb_S4x1024x3072_S1x1024x3072_2_0_0 (by omega) x3 0 k n)
    (fun n => Cert.Lib.ld_slab rfl Facts₀.inb_S4x1x3072_S1x1x3072_2_0_0 (by omega) x4 0 0 n) (fun n => Cert.Lib.ld_slab rfl Facts₀.inb_S4x1x3072_S1x1x3072_2_0_0 (by omega) x5 0 0 n) j

theorem L4_at (p : Fin 64) (j : Fin 1024) :
    L4 (F := Ideal) x0 x1 x2 x3 x4 x5 (ix2 p j) = (tw x2 x3 x4 x5 x6 x7).h4 (xrow x0 p) (hrow x1 p) j :=
  kLayer_at x1 x2 x3 x4 x5 x6 x7 (l := 3) (by omega) _ _ _ _ _ _ ((tw x2 x3 x4 x5 x6 x7).h3 (xrow x0 p) (hrow x1 p)) p
    (fun k => L3_at x0 x1 x2 x3 x4 x5 x6 x7 p k)
    (fun k => Cert.Lib.ld_slab rfl Facts₀.inb_S4x64x1024_S1x64x1024_3_0_0 (by omega) x1 0 p k) (fun k n => Cert.Lib.ld_slab rfl Facts₀.inb_S4x1024x3072_S1x1024x3072_3_0_0 (by omega) x2 0 k n) (fun k n => Cert.Lib.ld_slab rfl Facts₀.inb_S4x1024x3072_S1x1024x3072_3_0_0 (by omega) x3 0 k n)
    (fun n => Cert.Lib.ld_slab rfl Facts₀.inb_S4x1x3072_S1x1x3072_3_0_0 (by omega) x4 0 0 n) (fun n => Cert.Lib.ld_slab rfl Facts₀.inb_S4x1x3072_S1x1x3072_3_0_0 (by omega) x5 0 0 n) j

/-! ## The two buffers the body leaves -/

/-- The buffer of new states as one function of its index. -/
def newStates (y : S4x64x1024.Idx) : EReal :=
  (tw x2 x3 x4 x5 x6 x7).hs (xrow x0 (y 1)) (hrow x1 (y 1)) (y 0) (y 2)

/-- A slab that holds layer `l`'s tile is the slab of `newStates` its rectangle names. -/
theorem slab_piece {l : ℕ} (hl : l < 4) {off : Fin 3 → ℕ} (ho : off = ![l, 0, 0])
    (inb : ∀ ax, off ax + S1x64x1024.size ax ≤ S4x64x1024.size ax) (T : FVec Ideal S64x1024 .f32)
    (hT : ∀ p j, T (ix2 p j) = (tw x2 x3 x4 x5 x6 x7).hs (xrow x0 p) (hrow x1 p) ⟨l, hl⟩ j) (x : S1x64x1024.Idx) :
    shapeCast S1x64x1024 T Facts₀.shapeCasts_S64x1024_S1x64x1024 x
      = newStates x0 x1 x2 x3 x4 x5 x6 x7 ((Rect.unit (s := S4x64x1024) off S1x64x1024.size inb).emb x) := by
  obtain ⟨u, p, j, rfl⟩ : ∃ (u : Fin 1) (p : Fin 64) (j : Fin 1024), x = ix3 u p j := ⟨x 0, x 1, x 2, eq_ix3 x⟩
  rw [Cert.Lib.slab_emb ho inb hl (ix3 u p j)]
  refine (shapeCast_ab_1ab_apply T _ u p j).trans ?_
  rw [hT]
  rfl

theorem out8_at (l : Fin 4) (p : Fin 64) (j : Fin 1024) :
    out0_8 (F := Ideal) x0 x1 x2 x3 x4 x5 x6 x7 (ix3 l p j) = (tw x2 x3 x4 x5 x6 x7).hs (xrow x0 p) (hrow x1 p) l j := by
  rw [out8_eq]
  refine (View.canon_apply_of_pieces (newStates x0 x1 x2 x3 x4 x5 x6 x7) _ ?_ (ix3 l p j) (cover0_8 _ _ _ _ _)).trans rfl
  intro pc hpc
  simp only [List.mem_cons, List.not_mem_nil, or_false] at hpc
  rcases hpc with rfl | rfl | rfl | rfl
  · intro x; exact slab_piece x0 x1 x2 x3 x4 x5 x6 x7 (l := 3) (by omega) rfl Facts₀.inb_S4x64x1024_S1x64x1024_3_0_0 _ (fun p j => L4_at x0 x1 x2 x3 x4 x5 x6 x7 p j) x
  · intro x; exact slab_piece x0 x1 x2 x3 x4 x5 x6 x7 (l := 2) (by omega) rfl Facts₀.inb_S4x64x1024_S1x64x1024_2_0_0 _ (fun p j => L3_at x0 x1 x2 x3 x4 x5 x6 x7 p j) x
  · intro x; exact slab_piece x0 x1 x2 x3 x4 x5 x6 x7 (l := 1) (by omega) rfl Facts₀.inb_S4x64x1024_S1x64x1024_1_0_0 _ (fun p j => L2_at x0 x1 x2 x3 x4 x5 x6 x7 p j) x
  · intro x; exact slab_piece x0 x1 x2 x3 x4 x5 x6 x7 (l := 0) (by omega) rfl Facts₀.inb_S4x64x1024_S1x64x1024_0_0_0 _ (fun p j => L1_at x0 x1 x2 x3 x4 x5 x6 x7 p j) x

theorem out9_at (p : Fin 64) (o : Fin 256) :
    out0_9 (F := Ideal) x0 x1 x2 x3 x4 x5 x6 x7 (ix2 p o) = (tw x2 x3 x4 x5 x6 x7).out (xrow x0 p) (hrow x1 p) o := by
  rw [out9_eq, View.canon_unit_zero (S := S64x256) zeros2]
  refine (tileAff_apply _ _ _ _ _ _ p o).trans ?_
  unfold Weights.out tw
  simp only [L4_at x0 x1 x2 x3 x4 x5 x6 x7, shapeCast_self, View.ld_unit_zero (S := S1024x256) zeros2, View.ld_unit_zero (S := S1x256) zeros2]
  rfl

end Cert.KernelIdeal.Tile

end
-- ==== Proof.KernelArrays.lean ====
/-
  The kernel's two results as functions of the arrays its windows stage.

  The pallas_call is given eight arrays: the projected inputs, the stacked previous states, the two stacks of weight matrices
  (input-major), the two stacks of one-row biases, the read-out's weights (input-major) and its one-row bias. Row `b` of the
  results depends on row `b` of the first two and on all of the others.
-/
import proofs.«165582_j62508954026437_2_alg».proof.Proof.KernelTile

noncomputable section

namespace Cert.KernelIdeal.Tile

open Cert.KernelIdeal Cert.Gru Idealize.ShloMosaic Idealize.ShloMosaic.ValueIdx

variable (W0 : FVec Ideal S2048x1024 .f32) (W1 : FVec Ideal S4x2048x1024 .f32) (x2 x3 : FVec Ideal S4x1024x3072 .bf16)
  (x4 x5 : FVec Ideal S4x1x3072 .f32) (x6 : FVec Ideal S1024x256 .bf16) (x7 : FVec Ideal S1x256 .f32)

/-- Row `b` of the projected inputs and of the previous states, as whole arrays hold them. -/
abbrev wxrow (b : Fin 2048) : Fin 1024 → EReal := fun k => W0 (ix2 b k)
abbrev whrow (b : Fin 2048) : Fin 4 → Fin 1024 → EReal := fun l k => W1 (ix3 l b k)

/-- The array of new states. -/
def winHidden : S4x2048x1024.Idx → EReal :=
  fun i => (tw x2 x3 x4 x5 x6 x7).hs (wxrow W0 (i 1)) (whrow W1 (i 1)) (i 0) (i 2)

/-- The array of read-outs. -/
def winLogits : S2048x256.Idx → EReal :=
  fun i => (tw x2 x3 x4 x5 x6 x7).out (wxrow W0 (i 0)) (whrow W1 (i 0)) (i 1)

end Cert.KernelIdeal.Tile

end
-- ==== Proof.KernelBlocks.lean ====
/-
  From the blocks each grid point writes back to the two whole result arrays.

  Grid point `t` is given rows `64·t … 64·t + 63` of the projected inputs and of the previous states and all of every other
  array; what it writes back is rows `64·t … 64·t + 63` of the two result arrays as functions of the staged arrays. The 32
  points' blocks tile both results, so after the run each result array is that function.
-/
import proofs.«165582_j62508954026437_2_alg».proof.Proof.Gen.KernelIdeal.Value
import proofs.«165582_j62508954026437_2_alg».proof.Proof.KernelArrays

set_option maxRecDepth 16384

noncomputable section

namespace Cert.KernelIdeal.Blocks

open Cert.KernelIdeal Cert.KernelIdeal.Gen Cert.KernelIdeal.Tile Cert.Gru
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The index maps, decided over the grid -/

/-- The projected inputs and the read-outs move one block of rows per point; -/
theorem idx0 : ∀ t : Fin cfg0.N, win0_0.index t (0 : Fin 2) = t.val ∧ win0_0.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
/-- the previous and the new states one block of rows of every layer. -/
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx8 : ∀ t : Fin cfg0.N, win0_8.index t (0 : Fin 3) = 0 ∧ win0_8.index t (1 : Fin 3) = t.val ∧ win0_8.index t (2 : Fin 3) = 0 :=
  (by decide +kernel : ∀ t : Fin grid0.N, _)

theorem lt32 (t : Fin cfg0.N) : t.val < 32 := lt_of_lt_of_eq t.isLt N_0

/-- Window 2's block is its whole array at every point. -/
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem blk2_eq (c : Dev nD) (t : Fin cfg0.N) : (iblk m c 2 t : FVec Ideal S4x1024x3072 .bf16) = V m c main_v6 := by
  funext y
  show V m c main_v6 (((cfg0.win 2).blk t).view.emb y) = V m c main_v6 y
  refine congrArg _ (funext fun a => Fin.ext ?_)
  obtain ⟨e0, e1, e2⟩ := idx2 t
  match a with
  | ⟨0, _⟩ => show win0_2.index t (0 : Fin 3) * 4 + 1 * (y 0).val = (y 0).val; omega
  | ⟨1, _⟩ => show win0_2.index t (1 : Fin 3) * 1024 + 1 * (y 1).val = (y 1).val; omega
  | ⟨2, _⟩ => show win0_2.index t (2 : Fin 3) * 3072 + 1 * (y 2).val = (y 2).val; omega

/-- Window 3's block is its whole array at every point. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem blk3_eq (c : Dev nD) (t : Fin cfg0.N) : (iblk m c 3 t : FVec Ideal S4x1024x3072 .bf16) = V m c main_v8 := by
  funext y
  show V m c main_v8 (((cfg0.win 3).blk t).view.emb y) = V m c main_v8 y
  refine congrArg _ (funext fun a => Fin.ext ?_)
  obtain ⟨e0, e1, e2⟩ := idx3 t
  match a with
  | ⟨0, _⟩ => show win0_3.index t (0 : Fin 3) * 4 + 1 * (y 0).val = (y 0).val; omega
  | ⟨1, _⟩ => show win0_3.index t (1 : Fin 3) * 1024 + 1 * (y 1).val = (y 1).val; omega
  | ⟨2, _⟩ => show win0_3.index t (2 : Fin 3) * 3072 + 1 * (y 2).val = (y 2).val; omega

/-- Window 4's block is its whole array at every point. -/
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

theorem blk4_eq (c : Dev nD) (t : Fin cfg0.N) : (iblk m c 4 t : FVec Ideal S4x1x3072 .f32) = V m c main_v9 := by
  funext y
  show V m c main_v9 (((cfg0.win 4).blk t).view.emb y) = V m c main_v9 y
  refine congrArg _ (funext fun a => Fin.ext ?_)
  obtain ⟨e0, e1, e2⟩ := idx4 t
  match a with
  | ⟨0, _⟩ => show win0_4.index t (0 : Fin 3) * 4 + 1 * (y 0).val = (y 0).val; omega
  | ⟨1, _⟩ => show win0_4.index t (1 : Fin 3) * 1 + 1 * (y 1).val = (y 1).val; omega
  | ⟨2, _⟩ => show win0_4.index t (2 : Fin 3) * 3072 + 1 * (y 2).val = (y 2).val; omega

/-- Window 5's block is its whole array at every point. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem blk5_eq (c : Dev nD) (t : Fin cfg0.N) : (iblk m c 5 t : FVec Ideal S4x1x3072 .f32) = V m c main_v10 := by
  funext y
  show V m c main_v10 (((cfg0.win 5).blk t).view.emb y) = V m c main_v10 y
  refine congrArg _ (funext fun a => Fin.ext ?_)
  obtain ⟨e0, e1, e2⟩ := idx5 t
  match a with
  | ⟨0, _⟩ => show win0_5.index t (0 : Fin 3) * 4 + 1 * (y 0).val = (y 0).val; omega
  | ⟨1, _⟩ => show win0_5.index t (1 : Fin 3) * 1 + 1 * (y 1).val = (y 1).val; omega
  | ⟨2, _⟩ => show win0_5.index t (2 : Fin 3) * 3072 + 1 * (y 2).val = (y 2).val; omega

/-- Window 6's block is its whole array at every point. -/
theorem idx6 : ∀ t : Fin cfg0.N, win0_6.index t (0 : Fin 2) = 0 ∧ win0_6.index t (1 : Fin 2) = 0 :=
  (by decide +kernel : ∀ t : Fin grid0.N, _)

theorem blk6_eq (c : Dev nD) (t : Fin cfg0.N) : (iblk m c 6 t : FVec Ideal S1024x256 .bf16) = V m c main_v12 := by
  funext y
  show V m c main_v12 (((cfg0.win 6).blk t).view.emb y) = V m c main_v12 y
  refine congrArg _ (funext fun a => Fin.ext ?_)
  obtain ⟨e0, e1⟩ := idx6 t
  match a with
  | ⟨0, _⟩ => show win0_6.index t (0 : Fin 2) * 1024 + 1 * (y 0).val = (y 0).val; omega
  | ⟨1, _⟩ => show win0_6.index t (1 : Fin 2) * 256 + 1 * (y 1).val = (y 1).val; omega

/-- Window 7's block is its whole array at every point. -/
theorem idx7 : ∀ t : Fin cfg0.N, win0_7.index t (0 : Fin 2) = 0 ∧ win0_7.index t (1 : Fin 2) = 0 :=
  (by decide +kernel : ∀ t : Fin grid0.N, _)

theorem blk7_eq (c : Dev nD) (t : Fin cfg0.N) : (iblk m c 7 t : FVec Ideal S1x256 .f32) = V m c main_v13 := by
  funext y
  show V m c main_v13 (((cfg0.win 7).blk t).view.emb y) = V m c main_v13 y
  refine congrArg _ (funext fun a => Fin.ext ?_)
  obtain ⟨e0, e1⟩ := idx7 t
  match a with
  | ⟨0, _⟩ => show win0_7.index t (0 : Fin 2) * 1 + 1 * (y 0).val = (y 0).val; omega
  | ⟨1, _⟩ => show win0_7.index t (1 : Fin 2) * 256 + 1 * (y 1).val = (y 1).val; omega

/-! ## The row blocks -/

/-- Row `p` of point `t`'s block of projected inputs is row `64·t + p` of the array. -/
theorem blk0_at (c : Dev nD) (t : Fin cfg0.N) (p : Fin 64) (k : Fin 1024) (q : Fin 2048) (hq : q.val = t.val * 64 + p.val) :
    iblk m c 0 t (ix2 p k) = V m c main_v4 (ix2 q k) := by
  show V m c main_v4 (((cfg0.win 0).blk t).view.emb (ix2 p k)) = _
  refine congrArg _ (funext fun a => Fin.ext ?_)
  obtain ⟨e0, e1⟩ := idx0 t
  match a with
  | ⟨0, _⟩ => show win0_0.index t (0 : Fin 2) * 64 + 1 * p.val = q.val; omega
  | ⟨1, _⟩ => show win0_0.index t (1 : Fin 2) * 1024 + 1 * k.val = k.val; omega

/-- Row `p` of layer `l` of point `t`'s block of previous states is row `64·t + p` of layer `l` of the array. -/
theorem blk1_at (c : Dev nD) (t : Fin cfg0.N) (l : Fin 4) (p : Fin 64) (k : Fin 1024) (q : Fin 2048) (hq : q.val = t.val * 64 + p.val) :
    iblk m c 1 t (ix3 l p k) = V m c main_arg1 (ix3 l q k) := by
  show V m c main_arg1 (((cfg0.win 1).blk t).view.emb (ix3 l p k)) = _
  refine congrArg _ (funext fun a => Fin.ext ?_)
  obtain ⟨e0, e1, e2⟩ := idx1 t
  match a with
  | ⟨0, _⟩ => show win0_1.index t (0 : Fin 3) * 4 + 1 * l.val = l.val; omega
  | ⟨1, _⟩ => show win0_1.index t (1 : Fin 3) * 64 + 1 * p.val = q.val; omega
  | ⟨2, _⟩ => show win0_1.index t (2 : Fin 3) * 1024 + 1 * k.val = k.val; omega

/-! ## What a point writes back -/

/-- Entry `(l, p, j)` of the block of new states point `t` leaves is the array of new states at that block's place. -/
theorem flushed8_at (c : Dev nD) (t : Fin cfg0.N) (l : Fin 4) (p : Fin 64) (j : Fin 1024) :
    out0_8 (F := Ideal) (iblk m c 0 t) (iblk m c 1 t) (iblk m c 2 t) (iblk m c 3 t) (iblk m c 4 t) (iblk m c 5 t) (iblk m c 6 t) (iblk m c 7 t) (ix3 l p j)
      = winHidden (V m c main_v4) (V m c main_arg1) (V m c main_v6) (V m c main_v8) (V m c main_v9) (V m c main_v10) (V m c main_v12) (V m c main_v13) (((cfg0.win 8).blk t).view.emb (ix3 l p j)) := by
  have ht := lt32 t
  have hq : t.val * 64 + p.val < 2048 := by have := p.isLt; omega
  have he : ((cfg0.win 8).blk t).view.emb (ix3 l p j) = ix3 l (⟨t.val * 64 + p.val, hq⟩ : Fin 2048) j := by
    refine funext fun a => Fin.ext ?_
    obtain ⟨e0, e1, e2⟩ := idx8 t
    match a with
    | ⟨0, _⟩ => show win0_8.index t (0 : Fin 3) * 4 + 1 * l.val = l.val; omega
    | ⟨1, _⟩ => show win0_8.index t (1 : Fin 3) * 64 + 1 * p.val = t.val * 64 + p.val; omega
    | ⟨2, _⟩ => show win0_8.index t (2 : Fin 3) * 1024 + 1 * j.val = j.val; omega
  rw [he]
  refine (out8_at (iblk m c 0 t) (iblk m c 1 t) (iblk m c 2 t) (iblk m c 3 t) (iblk m c 4 t) (iblk m c 5 t) (iblk m c 6 t) (iblk m c 7 t) l p j).trans ?_
  have hx : xrow (iblk m c 0 t) p = wxrow (V m c main_v4) ⟨t.val * 64 + p.val, hq⟩ := funext fun k => blk0_at m c t p k _ rfl
  have hh : hrow (iblk m c 1 t) p = whrow (V m c main_arg1) ⟨t.val * 64 + p.val, hq⟩ := funext fun l => funext fun k => blk1_at m c t l p k _ rfl
  rw [hx, hh, blk2_eq m c t, blk3_eq m c t, blk4_eq m c t, blk5_eq m c t, blk6_eq m c t, blk7_eq m c t]
  rfl

theorem flushed8_eq (c : Dev nD) (t : Fin cfg0.N) :
    (dats m 0 c).flushed 8 t = ((cfg0.win 8).blk t).view.read (Elt Ideal) (winHidden (V m c main_v4) (V m c main_arg1) (V m c main_v6) (V m c main_v8) (V m c main_v9) (V m c main_v10) (V m c main_v12) (V m c main_v13)) := by
  rw [Value.flushed8]
  funext y
  obtain ⟨l, p, j, rfl⟩ : ∃ (l : Fin 4) (p : Fin 64) (j : Fin 1024), y = ix3 l p j := ⟨y 0, y 1, y 2, eq_ix3 y⟩
  exact flushed8_at m c t l p j

/-- Entry `(p, o)` of the block of read-outs point `t` leaves is the array of read-outs at that block's place. -/
theorem flushed9_at (c : Dev nD) (t : Fin cfg0.N) (p : Fin 64) (o : Fin 256) :
    out0_9 (F := Ideal) (iblk m c 0 t) (iblk m c 1 t) (iblk m c 2 t) (iblk m c 3 t) (iblk m c 4 t) (iblk m c 5 t) (iblk m c 6 t) (iblk m c 7 t) (ix2 p o)
      = winLogits (V m c main_v4) (V m c main_arg1) (V m c main_v6) (V m c main_v8) (V m c main_v9) (V m c main_v10) (V m c main_v12) (V m c main_v13) (((cfg0.win 9).blk t).view.emb (ix2 p o)) := by
  have ht := lt32 t
  have hq : t.val * 64 + p.val < 2048 := by have := p.isLt; omega
  have he : ((cfg0.win 9).blk t).view.emb (ix2 p o) = ix2 (⟨t.val * 64 + p.val, hq⟩ : Fin 2048) o := by
    refine funext fun a => Fin.ext ?_
    obtain ⟨e0, e1⟩ := idx9 t
    match a with
    | ⟨0, _⟩ => show win0_9.index t (0 : Fin 2) * 64 + 1 * p.val = t.val * 64 + p.val; omega
    | ⟨1, _⟩ => show win0_9.index t (1 : Fin 2) * 256 + 1 * o.val = o.val; omega
  rw [he]
  refine (out9_at (iblk m c 0 t) (iblk m c 1 t) (iblk m c 2 t) (iblk m c 3 t) (iblk m c 4 t) (iblk m c 5 t) (iblk m c 6 t) (iblk m c 7 t) p o).trans ?_
  have hx : xrow (iblk m c 0 t) p = wxrow (V m c main_v4) ⟨t.val * 64 + p.val, hq⟩ := funext fun k => blk0_at m c t p k _ rfl
  have hh : hrow (iblk m c 1 t) p = whrow (V m c main_arg1) ⟨t.val * 64 + p.val, hq⟩ := funext fun l => funext fun k => blk1_at m c t l p k _ rfl
  rw [hx, hh, blk2_eq m c t, blk3_eq m c t, blk4_eq m c t, blk5_eq m c t, blk6_eq m c t, blk7_eq m c t]
  rfl

theorem flushed9_eq (c : Dev nD) (t : Fin cfg0.N) :
    (dats m 0 c).flushed 9 t = ((cfg0.win 9).blk t).view.read (Elt Ideal) (winLogits (V m c main_v4) (V m c main_arg1) (V m c main_v6) (V m c main_v8) (V m c main_v9) (V m c main_v10) (V m c main_v12) (V m c main_v13)) := by
  rw [Value.flushed9]
  funext y
  obtain ⟨p, o, rfl⟩ : ∃ (p : Fin 64) (o : Fin 256), y = ix2 p o := ⟨y 0, y 1, eq_ix2 y⟩
  exact flushed9_at m c t p o

/-! ## The blocks tile the results -/

theorem mem_blk8 (t : Fin cfg0.N) (i : S4x2048x1024.Idx) :
    i ∈ ((cfg0.win 8).blk t).view.set ↔ ∀ a : Fin 3, win0_8.index t a * S4x64x1024.size a ≤ (i a).val ∧ (i a).val < win0_8.index t a * S4x64x1024.size a + S4x64x1024.size a := by
  show i ∈ ((View.whole main_v14_0).slice (win0_8.rect t)).set ↔ _
  rw [View.set_slice_whole, Rect.mem_set_unit]
  exact Iff.rfl

theorem mem_blk9 (t : Fin cfg0.N) (i : S2048x256.Idx) :
    i ∈ ((cfg0.win 9).blk t).view.set ↔ ∀ a : Fin 2, win0_9.index t a * S64x256.size a ≤ (i a).val ∧ (i a).val < win0_9.index t a * S64x256.size a + S64x256.size a := by
  show i ∈ ((View.whole main_v14_1).slice (win0_9.rect t)).set ↔ _
  rw [View.set_slice_whole, Rect.mem_set_unit]
  exact Iff.rfl

/-- Every block of 64 rows is some point's. -/
theorem idx_onto8 : ∀ q : Fin 32, ∃ t : Fin cfg0.N, win0_8.index t = ![0, q.val, 0] :=
  (by decide +kernel : ∀ q : Fin 32, ∃ t : Fin grid0.N, win0_8.index t = ![0, q.val, 0])
theorem idx_onto9 : ∀ q : Fin 32, ∃ t : Fin cfg0.N, win0_9.index t = ![q.val, 0] :=
  (by decide +kernel : ∀ q : Fin 32, ∃ t : Fin grid0.N, win0_9.index t = ![q.val, 0])

/-- Row `r` of the new states is in the block of point `r / 64`. -/
theorem cover8 (i : S4x2048x1024.Idx) : ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 1024 := (i 2).isLt
  obtain ⟨t, ht⟩ := idx_onto8 ⟨(i 1).val / 64, by omega⟩
  have q0 : win0_8.index t (0 : Fin 3) = 0 := congrFun ht 0
  have q1 : win0_8.index t (1 : Fin 3) = (i 1).val / 64 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 4 ≤ (i 0).val ∧ (i 0).val < win0_8.index t (0 : Fin 3) * 4 + 4; omega
  | ⟨1, _⟩ => show win0_8.index t (1 : Fin 3) * 64 ≤ (i 1).val ∧ (i 1).val < win0_8.index t (1 : Fin 3) * 64 + 64; omega
  | ⟨2, _⟩ => show win0_8.index t (2 : Fin 3) * 1024 ≤ (i 2).val ∧ (i 2).val < win0_8.index t (2 : Fin 3) * 1024 + 1024; omega

/-- Row `r` of the read-outs is in the block of point `r / 64`. -/
theorem cover9 (i : S2048x256.Idx) : ∃ t : Fin cfg0.N, (cfg0.win 9).flush t = true ∧ i ∈ ((cfg0.win 9).blk t).view.set := by
  have hi0 : (i 0).val < 2048 := (i 0).isLt
  have hi1 : (i 1).val < 256 := (i 1).isLt
  obtain ⟨t, ht⟩ := idx_onto9 ⟨(i 0).val / 64, by omega⟩
  have q0 : win0_9.index t (0 : Fin 2) = (i 0).val / 64 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 64 ≤ (i 0).val ∧ (i 0).val < win0_9.index t (0 : Fin 2) * 64 + 64; omega
  | ⟨1, _⟩ => show win0_9.index t (1 : Fin 2) * 256 ≤ (i 1).val ∧ (i 1).val < win0_9.index t (1 : Fin 2) * 256 + 256; omega

/-! ## The result arrays after the run -/

theorem final8 (c : Dev nD) : (dats m 0 c).arrAt 8 cfg0.N = winHidden (V m c main_v4) (V m c main_arg1) (V m c main_v6) (V m c main_v8) (V m c main_v9) (V m c main_v10) (V m c main_v12) (V m c main_v13) :=
  (dats m 0 c).arrAt_eq_of_cover 8 _ (fun t _ => flushed8_eq m c t) cover8

theorem final9 (c : Dev nD) : (dats m 0 c).arrAt 9 cfg0.N = winLogits (V m c main_v4) (V m c main_arg1) (V m c main_v6) (V m c main_v8) (V m c main_v9) (V m c main_v10) (V m c main_v12) (V m c main_v13) :=
  (dats m 0 c).arrAt_eq_of_cover 9 _ (fun t _ => flushed9_eq m c t) cover9

end Cert.KernelIdeal.Blocks

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.HostForm.lean ====
/-
  The host's spelling of an affine image and of one recurrent cell, over whole arrays, read at an index.

  The host multiplies `R` rows by the TRANSPOSE of a weight matrix stored output-major (`[N, K]`: row `n` holds output `n`'s
  weights) and lays the bias vector along every row by two broadcasts. Entry `(r, n)` is row `r` against row `n` of the
  weights, plus the bias's entry `n`. It writes the logistic function out as `1 / (1 + e^(-u))`, which on the extended
  reals is the logistic function itself.
-/
import proofs.«165582_j62508954026437_2_alg».proof.Proof.Spec
import proofs.«165582_j62508954026437_2_alg».proof.Proof.LibMatDot
import proofs.«165582_j62508954026437_2_alg».proof.Proof.LibAsRow
import proofs.«165582_j62508954026437_2_alg».proof.Proof.LibSlabs
import Idealize.ShloMosaic.Lib.Pipeline.Value
import Idealize.ShloMosaic.Lib.ValueLayout

noncomputable section

namespace Cert.Gru

open Idealize.ShloMosaic Idealize.ShloMosaic.ValueIdx
open scoped BigOperators

variable {F : FTy → Type} [FloatOps F] {R K N : ℕ}

/-- `x · Wᵀ + b` over whole arrays: the host's product with the transposed weights, the bias broadcast to one row and
    the row to every row. -/
def hostAff (wf : DotDims.WF ⟨2, ![R, K]⟩ ⟨2, ![K, N]⟩ ⟨2, ![R, N]⟩ [1] [0] [0] [1] [] [])
    (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (x : FVec F ⟨2, ![R, K]⟩ .f32) (W : FVec F ⟨2, ![N, K]⟩ .f32) (b : FVec F ⟨1, ![N]⟩ .f32) : FVec F ⟨2, ![R, N]⟩ .f32 :=
  addf (Host.dotGeneral (Cert.Lib.matDot wf) none x (transpose ⟨2, ![K, N]⟩ [1, 0] W ht))
    (broadcastInDim ⟨2, ![R, N]⟩ ![0, 1] hb2 (broadcastInDim ⟨2, ![1, N]⟩ ![1] hb1 b))

theorem hostAff_apply (wf : DotDims.WF ⟨2, ![R, K]⟩ ⟨2, ![K, N]⟩ ⟨2, ![R, N]⟩ [1] [0] [0] [1] [] [])
    (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (x : FVec Ideal ⟨2, ![R, K]⟩ .f32) (W : FVec Ideal ⟨2, ![N, K]⟩ .f32) (b : FVec Ideal ⟨1, ![N]⟩ .f32)
    (r : Fin R) (n : Fin N) :
    hostAff wf ht hb1 hb2 x W b (ix2 r n)
      = aff (fun k => x (ix2 r k)) (fun n k => W (ix2 n k)) (fun n => b (ix1 n)) n := by
  unfold hostAff aff
  rw [addf_apply, Cert.Lib.rows_of_oneRow, Cert.Lib.broadcastInDim_eq_asRow, Cert.Lib.asRow_apply]
  refine congrArg (· + b (ix1 n)) ?_
  refine (Cert.Lib.dotGeneral_plain_apply wf none .single x (transpose ⟨2, ![K, N]⟩ [1, 0] W ht) r n).trans ?_
  exact Finset.sum_congr rfl fun k _ => by rw [transpose_ix2_apply]

/-- The logistic function as the host writes it: `1 / (1 + e^(-u))`, the ones broadcast from a scalar constant. -/
def hostSig {s : Shape} (hb0 : (⟨0, ![]⟩ : Shape).BroadcastsInDim s (![] : Fin 0 → Fin s.rank)) (u : FVec F s .f32) : FVec F s .f32 :=
  Host.divf (broadcastInDim s ![] hb0 (constant ⟨0, ![]⟩ .f32 0x3F800000#32))
    (addf (broadcastInDim s ![] hb0 (constant ⟨0, ![]⟩ .f32 0x3F800000#32)) (Host.exp (Host.negf u)))

/-- A scalar constant broadcast to any shape reads the constant's value everywhere. -/
theorem scalar_const_at {s : Shape} (hb0 : (⟨0, ![]⟩ : Shape).BroadcastsInDim s (![] : Fin 0 → Fin s.rank)) (w : BitVec 32) (i : s.Idx) :
    broadcastInDim s ![] hb0 (constant (F := Ideal) ⟨0, ![]⟩ .f32 w) i = Ideal.ofBits .f32 w := rfl

theorem hostSig_apply {s : Shape} (hb0 : (⟨0, ![]⟩ : Shape).BroadcastsInDim s (![] : Fin 0 → Fin s.rank)) (u : FVec Ideal s .f32)
    (i : s.Idx) : hostSig hb0 u i = Ideal.logistic (u i) := by
  unfold hostSig
  show Ideal.div (broadcastInDim s ![] hb0 (constant (F := Ideal) ⟨0, ![]⟩ .f32 0x3F800000#32) i)
      (broadcastInDim s ![] hb0 (constant (F := Ideal) ⟨0, ![]⟩ .f32 0x3F800000#32) i + Ideal.exp (-(u i))) = _
  rw [scalar_const_at]
  exact div_one_add_exp_neg (u i)

/-- The lane-by-lane part of a cell as the host writes it, from its two affine images and the previous state. -/
def hostCellOf (hb0 : (⟨0, ![]⟩ : Shape).BroadcastsInDim ⟨2, ![R, 1024]⟩ (![] : Fin 0 → Fin 2))
    (s0 : (⟨2, ![R, 3072]⟩ : Shape).Slices ![0, 0] ⟨2, ![R, 1024]⟩)
    (s1 : (⟨2, ![R, 3072]⟩ : Shape).Slices ![0, 1024] ⟨2, ![R, 1024]⟩)
    (s2 : (⟨2, ![R, 3072]⟩ : Shape).Slices ![0, 2048] ⟨2, ![R, 1024]⟩)
    (gi gh : FVec F ⟨2, ![R, 3072]⟩ .f32) (h : FVec F ⟨2, ![R, 1024]⟩ .f32) : FVec F ⟨2, ![R, 1024]⟩ .f32 :=
  addf
    (mulf
      (subf (broadcastInDim ⟨2, ![R, 1024]⟩ ![] hb0 (constant ⟨0, ![]⟩ .f32 0x3F800000#32))
        (hostSig hb0 (addf (extractStridedSlice ⟨2, ![R, 1024]⟩ ![0, 1024] gi s1) (extractStridedSlice ⟨2, ![R, 1024]⟩ ![0, 1024] gh s1))))
      (Host.tanh (addf (extractStridedSlice ⟨2, ![R, 1024]⟩ ![0, 2048] gi s2)
        (mulf (hostSig hb0 (addf (extractStridedSlice ⟨2, ![R, 1024]⟩ ![0, 0] gi s0) (extractStridedSlice ⟨2, ![R, 1024]⟩ ![0, 0] gh s0)))
          (extractStridedSlice ⟨2, ![R, 1024]⟩ ![0, 2048] gh s2)))))
    (mulf (hostSig hb0 (addf (extractStridedSlice ⟨2, ![R, 1024]⟩ ![0, 1024] gi s1) (extractStridedSlice ⟨2, ![R, 1024]⟩ ![0, 1024] gh s1))) h)

theorem hostTanh_at {s : Shape} {φ : FTy} (v : FVec Ideal s φ) (i : s.Idx) : Host.tanh v i = Ideal.tanh (v i) := rfl

theorem hostCellOf_apply (hb0 : (⟨0, ![]⟩ : Shape).BroadcastsInDim ⟨2, ![R, 1024]⟩ (![] : Fin 0 → Fin 2))
    (s0 : (⟨2, ![R, 3072]⟩ : Shape).Slices ![0, 0] ⟨2, ![R, 1024]⟩)
    (s1 : (⟨2, ![R, 3072]⟩ : Shape).Slices ![0, 1024] ⟨2, ![R, 1024]⟩)
    (s2 : (⟨2, ![R, 3072]⟩ : Shape).Slices ![0, 2048] ⟨2, ![R, 1024]⟩)
    (gi gh : FVec Ideal ⟨2, ![R, 3072]⟩ .f32) (h : FVec Ideal ⟨2, ![R, 1024]⟩ .f32) (p : Fin R) (j : Fin 1024) :
    hostCellOf hb0 s0 s1 s2 gi gh h (ix2 p j)
      = (one - Ideal.logistic (gi (ix2 p (gateZ j)) + gh (ix2 p (gateZ j))))
          * Ideal.tanh (gi (ix2 p (gateN j)) + Ideal.logistic (gi (ix2 p (gateR j)) + gh (ix2 p (gateR j))) * gh (ix2 p (gateN j)))
        + Ideal.logistic (gi (ix2 p (gateZ j)) + gh (ix2 p (gateZ j))) * h (ix2 p j) := by
  unfold hostCellOf
  simp only [addf_apply, mulf_apply, subf_apply, hostSig_apply, hostTanh_at, scalar_const_at]
  rw [slice2_axis1_apply 1024 gi s1 p j (gateZ j) rfl, slice2_axis1_apply 1024 gh s1 p j (gateZ j) rfl,
    slice2_axis1_apply 2048 gi s2 p j (gateN j) rfl, slice2_axis1_apply 2048 gh s2 p j (gateN j) rfl,
    slice2_axis1_apply 0 gi s0 p j (gateR j) (Nat.zero_add _).symm, slice2_axis1_apply 0 gh s0 p j (gateR j) (Nat.zero_add _).symm]
  rfl

/-- One cell over whole arrays, as the host writes it. -/
def hostCell (wf : DotDims.WF ⟨2, ![R, 1024]⟩ ⟨2, ![1024, 3072]⟩ ⟨2, ![R, 3072]⟩ [1] [0] [0] [1] [] [])
    (ht : (⟨2, ![3072, 1024]⟩ : Shape).Transposes [1, 0] ⟨2, ![1024, 3072]⟩)
    (hb1 : (⟨1, ![3072]⟩ : Shape).BroadcastsInDim ⟨2, ![1, 3072]⟩ (![1] : Fin 1 → Fin 2))
    (hb2 : (⟨2, ![1, 3072]⟩ : Shape).BroadcastsInDim ⟨2, ![R, 3072]⟩ (![0, 1] : Fin 2 → Fin 2))
    (hb0 : (⟨0, ![]⟩ : Shape).BroadcastsInDim ⟨2, ![R, 1024]⟩ (![] : Fin 0 → Fin 2))
    (s0 : (⟨2, ![R, 3072]⟩ : Shape).Slices ![0, 0] ⟨2, ![R, 1024]⟩)
    (s1 : (⟨2, ![R, 3072]⟩ : Shape).Slices ![0, 1024] ⟨2, ![R, 1024]⟩)
    (s2 : (⟨2, ![R, 3072]⟩ : Shape).Slices ![0, 2048] ⟨2, ![R, 1024]⟩)
    (x h : FVec F ⟨2, ![R, 1024]⟩ .f32) (W U : FVec F ⟨2, ![3072, 1024]⟩ .f32) (b c : FVec F ⟨1, ![3072]⟩ .f32) :
    FVec F ⟨2, ![R, 1024]⟩ .f32 :=
  hostCellOf hb0 s0 s1 s2 (hostAff wf ht hb1 hb2 x W b) (hostAff wf ht hb1 hb2 h U c) h

/-- Entry `(p, j)` of the host's cell is the cell on row `p`, the weights read row by row. -/
theorem hostCell_apply (wf : DotDims.WF ⟨2, ![R, 1024]⟩ ⟨2, ![1024, 3072]⟩ ⟨2, ![R, 3072]⟩ [1] [0] [0] [1] [] [])
    (ht : (⟨2, ![3072, 1024]⟩ : Shape).Transposes [1, 0] ⟨2, ![1024, 3072]⟩)
    (hb1 : (⟨1, ![3072]⟩ : Shape).BroadcastsInDim ⟨2, ![1, 3072]⟩ (![1] : Fin 1 → Fin 2))
    (hb2 : (⟨2, ![1, 3072]⟩ : Shape).BroadcastsInDim ⟨2, ![R, 3072]⟩ (![0, 1] : Fin 2 → Fin 2))
    (hb0 : (⟨0, ![]⟩ : Shape).BroadcastsInDim ⟨2, ![R, 1024]⟩ (![] : Fin 0 → Fin 2))
    (s0 : (⟨2, ![R, 3072]⟩ : Shape).Slices ![0, 0] ⟨2, ![R, 1024]⟩)
    (s1 : (⟨2, ![R, 3072]⟩ : Shape).Slices ![0, 1024] ⟨2, ![R, 1024]⟩)
    (s2 : (⟨2, ![R, 3072]⟩ : Shape).Slices ![0, 2048] ⟨2, ![R, 1024]⟩)
    (x h : FVec Ideal ⟨2, ![R, 1024]⟩ .f32) (W U : FVec Ideal ⟨2, ![3072, 1024]⟩ .f32) (b c : FVec Ideal ⟨1, ![3072]⟩ .f32)
    (p : Fin R) (j : Fin 1024) :
    hostCell wf ht hb1 hb2 hb0 s0 s1 s2 x h W U b c (ix2 p j)
      = cell (fun k => x (ix2 p k)) (fun k => h (ix2 p k)) (fun n k => W (ix2 n k)) (fun n k => U (ix2 n k))
          (fun n => b (ix1 n)) (fun n => c (ix1 n)) j := by
  unfold hostCell cell
  rw [hostCellOf_apply]
  simp only [hostAff_apply]

end Cert.Gru

end
-- ==== Proof.ArraySpec.lean ====
/-
  The two results as whole arrays, from the ten argument arrays.

  Row `b` of the input is projected by an affine map; the projected row and the row's four previous states go through the
  four cells; entry `(l, b, j)` of the new states is unit `j` of layer `l`'s new state of row `b`, and entry `(b, o)` of the
  read-out is read-out `o` of row `b`. Every weight matrix is stored output-major, as the arguments are.
-/
import proofs.«165582_j62508954026437_2_alg».proof.Proof.Spec

noncomputable section

namespace Cert.Gru

open Idealize.ShloMosaic Idealize.ShloMosaic.ValueIdx

/-- The argument arrays: the inputs, the previous states, the projection's weights and bias, each layer's two weight
    matrices and two biases, the read-out's weights and bias. -/
structure Args where
  inp : FVec Ideal ⟨2, ![2048, 4]⟩ .f32
  hid : FVec Ideal ⟨3, ![4, 2048, 1024]⟩ .f32
  pw : FVec Ideal ⟨2, ![1024, 4]⟩ .f32
  pb : FVec Ideal ⟨1, ![1024]⟩ .f32
  wih : FVec Ideal ⟨3, ![4, 3072, 1024]⟩ .f32
  whh : FVec Ideal ⟨3, ![4, 3072, 1024]⟩ .f32
  bih : FVec Ideal ⟨2, ![4, 3072]⟩ .f32
  bhh : FVec Ideal ⟨2, ![4, 3072]⟩ .f32
  dw : FVec Ideal ⟨2, ![256, 1024]⟩ .f32
  db : FVec Ideal ⟨1, ![256]⟩ .f32

namespace Args

variable (A : Args)

def weights : Weights where
  wi l n k := A.wih (ix3 l n k)
  wh l n k := A.whh (ix3 l n k)
  bi l n := A.bih (ix2 l n)
  bh l n := A.bhh (ix2 l n)
  dw o k := A.dw (ix2 o k)
  db o := A.db (ix1 o)

/-- Row `b` of the projected inputs. -/
def x0row (b : Fin 2048) : Fin 1024 → EReal :=
  aff (fun k : Fin 4 => A.inp (ix2 b k)) (fun j k => A.pw (ix2 j k)) (fun j => A.pb (ix1 j))

/-- Row `b` of the four previous states. -/
def hrow (b : Fin 2048) : Fin 4 → Fin 1024 → EReal := fun l k => A.hid (ix3 l b k)

/-- The array of new states. -/
def newHidden : (⟨3, ![4, 2048, 1024]⟩ : Shape).Idx → EReal :=
  fun i => A.weights.hs (A.x0row (i 1)) (A.hrow (i 1)) (i 0) (i 2)

/-- The array of read-outs. -/
def logits : (⟨2, ![2048, 256]⟩ : Shape).Idx → EReal :=
  fun i => A.weights.out (A.x0row (i 0)) (A.hrow (i 0)) (i 1)

end Args

end Cert.Gru

end
-- ==== Proof.KernelHost.lean ====
/-
  The arrays the kernel's windows stage, from the argument arrays; and the kernel's results as the specification's.

  Before the pallas_call the host projects the inputs (an affine image of each row), transposes every weight matrix to
  input-major and narrows it, and gives each bias a unit axis. Read at an index, the staged projected inputs are the
  specification's projected rows, column `n` of a staged matrix is row `n` of the argument, and the staged biases are the
  arguments' entries. So the kernel's two results are the specification's two arrays of the arguments.
-/
import proofs.«165582_j62508954026437_2_alg».proof.Proof.Gen.KernelIdeal.Frame
import proofs.«165582_j62508954026437_2_alg».proof.Proof.KernelArrays
import proofs.«165582_j62508954026437_2_alg».proof.Proof.HostForm
import proofs.«165582_j62508954026437_2_alg».proof.Proof.ArraySpec
import Idealize.ShloMosaic.Lib.StableHlo.Run

set_option maxRecDepth 16384

noncomputable section

namespace Cert.KernelIdeal.Tile

open Cert.KernelIdeal Cert.Gru Idealize.ShloMosaic Idealize.ShloMosaic.ValueIdx

/-- If the staged arrays hold, entry by entry, what the specification reads of its arguments, the kernel's two results
    are the specification's. -/
theorem results_of (A : Args) (W0 : FVec Ideal S2048x1024 .f32) (W1 : FVec Ideal S4x2048x1024 .f32)
    (x2 x3 : FVec Ideal S4x1024x3072 .bf16) (x4 x5 : FVec Ideal S4x1x3072 .f32) (x6 : FVec Ideal S1024x256 .bf16)
    (x7 : FVec Ideal S1x256 .f32)
    (h0 : ∀ (b : Fin 2048) (k : Fin 1024), W0 (ix2 b k) = A.x0row b k)
    (h1 : ∀ (l : Fin 4) (b : Fin 2048) (k : Fin 1024), W1 (ix3 l b k) = A.hid (ix3 l b k))
    (h2 : ∀ (l : Fin 4) (k : Fin 1024) (n : Fin 3072), x2 (ix3 l k n) = A.wih (ix3 l n k))
    (h3 : ∀ (l : Fin 4) (k : Fin 1024) (n : Fin 3072), x3 (ix3 l k n) = A.whh (ix3 l n k))
    (h4 : ∀ (l : Fin 4) (n : Fin 3072), x4 (ix3 l (0 : Fin 1) n) = A.bih (ix2 l n))
    (h5 : ∀ (l : Fin 4) (n : Fin 3072), x5 (ix3 l (0 : Fin 1) n) = A.bhh (ix2 l n))
    (h6 : ∀ (k : Fin 1024) (o : Fin 256), x6 (ix2 k o) = A.dw (ix2 o k))
    (h7 : ∀ o : Fin 256, x7 (ix2 (0 : Fin 1) o) = A.db (ix1 o)) :
    winHidden W0 W1 x2 x3 x4 x5 x6 x7 = A.newHidden ∧ winLogits W0 W1 x2 x3 x4 x5 x6 x7 = A.logits := by
  have hw : tw x2 x3 x4 x5 x6 x7 = A.weights := by
    unfold tw Args.weights
    simp only [h2, h3, h4, h5, h6, h7]
  have hx : ∀ b : Fin 2048, wxrow W0 b = A.x0row b := fun b => funext fun k => h0 b k
  have hh : ∀ b : Fin 2048, whrow W1 b = A.hrow b := fun b => funext fun l => funext fun k => h1 l b k
  constructor
  · funext i
    obtain ⟨l, b, j, rfl⟩ : ∃ (l : Fin 4) (b : Fin 2048) (j : Fin 1024), i = ix3 l b j := ⟨i 0, i 1, i 2, eq_ix3 i⟩
    show (tw x2 x3 x4 x5 x6 x7).hs (wxrow W0 b) (whrow W1 b) l j = A.weights.hs (A.x0row b) (A.hrow b) l j
    rw [hw, hx, hh]
  · funext i
    obtain ⟨b, o, rfl⟩ : ∃ (b : Fin 2048) (o : Fin 256), i = ix2 b o := ⟨i 0, i 1, eq_ix2 i⟩
    show (tw x2 x3 x4 x5 x6 x7).out (wxrow W0 b) (whrow W1 b) o = A.weights.out (A.x0row b) (A.hrow b) o
    rw [hw, hx, hh]

end Cert.KernelIdeal.Tile

namespace Cert.KernelIdeal.HostSide

open Cert.KernelIdeal Cert.KernelIdeal.Gen Cert.KernelIdeal.Tile Cert.Gru
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The argument arrays as the kernel's program is launched with them. -/
def args (c : Dev nD) : Args where
  inp := (m ((c : Thread nD τ).loc main_arg0))
  hid := (m ((c : Thread nD τ).loc main_arg1))
  pw := (m ((c : Thread nD τ).loc main_arg2))
  pb := (m ((c : Thread nD τ).loc main_arg3))
  wih := (m ((c : Thread nD τ).loc main_arg4))
  whh := (m ((c : Thread nD τ).loc main_arg5))
  bih := (m ((c : Thread nD τ).loc main_arg6))
  bhh := (m ((c : Thread nD τ).loc main_arg7))
  dw := (m ((c : Thread nD τ).loc main_arg8))
  db := (m ((c : Thread nD τ).loc main_arg9))

/-! ## The staged arrays as the host operations' terms of the arguments -/

theorem V_v4 (c : Dev nD) : (V m c main_v4 : FVec Ideal S2048x1024 .f32)
    = hostAff (F := Ideal) Facts₀.dot_S2048x4_S4x1024_S2048x1024_1_0_0_1_n_n_wf Facts₀.transposes_S1024x4_S4x1024_1_0
        Facts₀.bcast_S1024_S1x1024_1 Facts₀.bcast_S1x1024_S2048x1024_0_1 (m ((c : Thread nD τ).loc main_arg0)) (m ((c : Thread nD τ).loc main_arg2)) (m ((c : Thread nD τ).loc main_arg3)) := by
  dsimp only [V, hostOps0]; after_results; rfl

theorem V_v6 (c : Dev nD) : (V m c main_v6 : FVec Ideal S4x1024x3072 .bf16)
    = truncf (F := Ideal) .bf16 (transpose S4x1024x3072 [0, 2, 1] (m ((c : Thread nD τ).loc main_arg4)) Facts₀.transposes_S4x3072x1024_S4x1024x3072_0_2_1) Facts₀.bitsLt_bf16_f32 := by
  dsimp only [V, hostOps0]; after_results

theorem V_v8 (c : Dev nD) : (V m c main_v8 : FVec Ideal S4x1024x3072 .bf16)
    = truncf (F := Ideal) .bf16 (transpose S4x1024x3072 [0, 2, 1] (m ((c : Thread nD τ).loc main_arg5)) Facts₀.transposes_S4x3072x1024_S4x1024x3072_0_2_1) Facts₀.bitsLt_bf16_f32 := by
  dsimp only [V, hostOps0]; after_results

theorem V_v9 (c : Dev nD) : (V m c main_v9 : FVec Ideal S4x1x3072 .f32)
    = shapeCast S4x1x3072 (m ((c : Thread nD τ).loc main_arg6)) Facts₀.shapeCasts_S4x3072_S4x1x3072 := by
  dsimp only [V, hostOps0]; after_results; rfl

theorem V_v10 (c : Dev nD) : (V m c main_v10 : FVec Ideal S4x1x3072 .f32)
    = shapeCast S4x1x3072 (m ((c : Thread nD τ).loc main_arg7)) Facts₀.shapeCasts_S4x3072_S4x1x3072 := by
  dsimp only [V, hostOps0]; after_results; rfl

theorem V_v12 (c : Dev nD) : (V m c main_v12 : FVec Ideal S1024x256 .bf16)
    = truncf (F := Ideal) .bf16 (transpose S1024x256 [1, 0] (m ((c : Thread nD τ).loc main_arg8)) Facts₀.transposes_S256x1024_S1024x256_1_0) Facts₀.bitsLt_bf16_f32 := by
  dsimp only [V, hostOps0]; after_results

theorem V_v13 (c : Dev nD) : (V m c main_v13 : FVec Ideal S1x256 .f32)
    = shapeCast S1x256 (m ((c : Thread nD τ).loc main_arg9)) Facts₀.shapeCasts_S256_S1x256 := by
  dsimp only [V, hostOps0]; after_results; rfl

/-! ## Read at an index -/

/-- The kernel's two results are the specification's arrays of the arguments. -/
theorem results_eq (c : Dev nD) :
    winHidden (V m c main_v4) (V m c main_arg1) (V m c main_v6) (V m c main_v8) (V m c main_v9) (V m c main_v10) (V m c main_v12) (V m c main_v13)
        = (args m c).newHidden
      ∧ winLogits (V m c main_v4) (V m c main_arg1) (V m c main_v6) (V m c main_v8) (V m c main_v9) (V m c main_v10) (V m c main_v12) (V m c main_v13)
        = (args m c).logits := by
  refine results_of (args m c) _ _ _ _ _ _ _ _ ?_ ?_ ?_ ?_ ?_ ?_ ?_ ?_
  · intro b k
    rw [V_v4]
    exact hostAff_apply _ _ _ _ _ _ _ b k
  · intro l b k
    rw [V_main_arg1]
    rfl
  · intro l k n
    rw [V_v6]
    exact transpose_ix3_021_apply _ _ l k n
  · intro l k n
    rw [V_v8]
    exact transpose_ix3_021_apply _ _ l k n
  · intro l n
    rw [V_v9]
    exact Cert.Lib.midUnit_at _ _ l 0 n
  · intro l n
    rw [V_v10]
    exact Cert.Lib.midUnit_at _ _ l 0 n
  · intro k o
    rw [V_v12]
    exact transpose_ix2_apply _ _ k o
  · intro o
    rw [V_v13]
    exact shapeCast_a_1a_apply _ _ 0 o

end Cert.KernelIdeal.HostSide

end
-- ==== Proof.RefCells.lean ====
/-
  The reference's two results are the specification's arrays.

  The reference keeps whole arrays. Its run is stated over named stages: for each layer the layer's slab of the previous
  states, two affine images, the update gate and the new state. Read together they are four uses of the host's spelling of
  one cell, each on the whole array below it and on the layer's slabs of the stacked arguments; the read-out is one more
  affine image, and the array of new states stacks the four layers' results along a new leading axis.
-/
import proofs.«165582_j62508954026437_2_alg».proof.Proof.Gen.ReferenceIdeal.Run
import proofs.«165582_j62508954026437_2_alg».proof.Proof.HostForm
import proofs.«165582_j62508954026437_2_alg».proof.Proof.ArraySpec

noncomputable section

namespace Cert.ReferenceIdeal.RefValue

open Cert.ReferenceIdeal Cert.ReferenceIdeal.Value Cert.Gru Idealize.ShloMosaic Idealize.ShloMosaic.ValueIdx

/-! ## The named stages as cells -/

variable {F : FTy → Type} [FloatOps F]

/-- The host's cell over the 2048 rows, under the program's own side conditions. -/
abbrev rCell (x h : FVec F S2048x1024 .f32) (W U : FVec F S3072x1024 .f32) (b c : FVec F S3072 .f32) : FVec F S2048x1024 .f32 :=
  hostCell Facts₀.dot_S2048x1024_S1024x3072_S2048x3072_1_0_0_1_n_n_wf Facts₀.transposes_S3072x1024_S1024x3072_1_0
    Facts₀.bcast_S3072_S1x3072_1 Facts₀.bcast_S1x3072_S2048x3072_0_1 Facts₀.bcast_S_S2048x1024
    Facts₀.slices_S2048x3072_S2048x1024_0_0 Facts₀.slices_S2048x3072_S2048x1024_0_1024 Facts₀.slices_S2048x3072_S2048x1024_0_2048
    x h W U b c

variable (V0 : Valuation τ sig (Elt F))

/-- The projected inputs. -/
abbrev proj : FVec F S2048x1024 .f32 :=
  hostAff Facts₀.dot_S2048x4_S4x1024_S2048x1024_1_0_0_1_n_n_wf Facts₀.transposes_S1024x4_S4x1024_1_0
    Facts₀.bcast_S1024_S1x1024_1 Facts₀.bcast_S1x1024_S2048x1024_0_1
    (V0 (Proc.devRef .tc main_arg0)) (V0 (Proc.devRef .tc main_arg2)) (V0 (Proc.devRef .tc main_arg3))

/-- Layer `l`'s slabs of the two stacks of weight matrices and of the two stacks of biases. -/
abbrev wSlab (X : FVec F S4x3072x1024 .f32) {l : ℕ} (hs : S4x3072x1024.Slices ![l, 0, 0] S1x3072x1024) : FVec F S3072x1024 .f32 :=
  shapeCast S3072x1024 (extractStridedSlice S1x3072x1024 ![l, 0, 0] X hs) Facts₀.shapeCasts_S1x3072x1024_S3072x1024
abbrev bSlab (X : FVec F S4x3072 .f32) {l : ℕ} (hs : S4x3072.Slices ![l, 0] S1x3072) : FVec F S3072 .f32 :=
  shapeCast S3072 (extractStridedSlice S1x3072 ![l, 0] X hs) Facts₀.shapeCasts_S1x3072_S3072

theorem v52_eq : res_main_v52 V0 = rCell (proj V0) (res_main_v6 V0)
    (wSlab (V0 (Proc.devRef .tc main_arg4)) Facts₀.slices_S4x3072x1024_S1x3072x1024_0_0_0)
    (wSlab (V0 (Proc.devRef .tc main_arg5)) Facts₀.slices_S4x3072x1024_S1x3072x1024_0_0_0)
    (bSlab (V0 (Proc.devRef .tc main_arg6)) Facts₀.slices_S4x3072_S1x3072_0_0)
    (bSlab (V0 (Proc.devRef .tc main_arg7)) Facts₀.slices_S4x3072_S1x3072_0_0) := rfl

theorem v100_eq : res_main_v100 V0 = rCell (res_main_v52 V0) (res_main_v54 V0)
    (wSlab (V0 (Proc.devRef .tc main_arg4)) Facts₀.slices_S4x3072x1024_S1x3072x1024_1_0_0)
    (wSlab (V0 (Proc.devRef .tc main_arg5)) Facts₀.slices_S4x3072x1024_S1x3072x1024_1_0_0)
    (bSlab (V0 (Proc.devRef .tc main_arg6)) Facts₀.slices_S4x3072_S1x3072_1_0)
    (bSlab (V0 (Proc.devRef .tc main_arg7)) Facts₀.slices_S4x3072_S1x3072_1_0) := rfl

theorem v148_eq : res_main_v148 V0 = rCell (res_main_v100 V0) (res_main_v102 V0)
    (wSlab (V0 (Proc.devRef .tc main_arg4)) Facts₀.slices_S4x3072x1024_S1x3072x1024_2_0_0)
    (wSlab (V0 (Proc.devRef .tc main_arg5)) Facts₀.slices_S4x3072x1024_S1x3072x1024_2_0_0)
    (bSlab (V0 (Proc.devRef .tc main_arg6)) Facts₀.slices_S4x3072_S1x3072_2_0)
    (bSlab (V0 (Proc.devRef .tc main_arg7)) Facts₀.slices_S4x3072_S1x3072_2_0) := rfl

theorem v196_eq : res_main_v196 V0 = rCell (res_main_v148 V0) (res_main_v150 V0)
    (wSlab (V0 (Proc.devRef .tc main_arg4)) Facts₀.slices_S4x3072x1024_S1x3072x1024_3_0_0)
    (wSlab (V0 (Proc.devRef .tc main_arg5)) Facts₀.slices_S4x3072x1024_S1x3072x1024_3_0_0)
    (bSlab (V0 (Proc.devRef .tc main_arg6)) Facts₀.slices_S4x3072_S1x3072_3_0)
    (bSlab (V0 (Proc.devRef .tc main_arg7)) Facts₀.slices_S4x3072_S1x3072_3_0) := rfl

end Cert.ReferenceIdeal.RefValue

end
-- ==== Proof.RefValue.lean ====
/-
  The reference's two results, index by index.

  Entry `(b, j)` of a layer's new state is the cell on row `b`: of the layer below, of the layer's slab of the previous
  states, with the layer's slabs of the weights and biases. The read-out at `(b, o)` is the affine image of the last
  layer's row `b`. The array of new states stacks the four layers' results: at `(l, b, j)` it is layer `l`'s at `(b, j)`.
-/
import proofs.«165582_j62508954026437_2_alg».proof.Proof.RefCells

set_option maxRecDepth 16384

noncomputable section

namespace Cert.ReferenceIdeal.RefValue

open Cert.ReferenceIdeal Cert.ReferenceIdeal.Value Cert.Gru Idealize.ShloMosaic Idealize.ShloMosaic.ValueIdx

/-! ## The two results as the run states them -/

section Terms

variable {F : FTy → Type} [FloatOps F] (V0 : Valuation τ sig (Elt F))

/-- The read-out: an affine image of the last layer's new state. -/
abbrev logitsTerm : FVec F S2048x256 .f32 :=
  hostAff Facts₀.dot_S2048x1024_S1024x256_S2048x256_1_0_0_1_n_n_wf Facts₀.transposes_S256x1024_S1024x256_1_0
    Facts₀.bcast_S256_S1x256_1 Facts₀.bcast_S1x256_S2048x256_0_1 (res_main_v196 V0) (V0 (Proc.devRef .tc main_arg8)) (V0 (Proc.devRef .tc main_arg9))

/-- A layer's new state under a new leading unit axis. -/
abbrev lift (v : FVec F S2048x1024 .f32) : FVec F S1x2048x1024 .f32 :=
  broadcastInDim S1x2048x1024 ![1, 2] Facts₀.bcast_S2048x1024_S1x2048x1024_1_2 v

/-- The array of new states: the four layers' results stacked. -/
abbrev hiddenTerm : FVec F S4x2048x1024 .f32 :=
  concatenate S4x2048x1024 0 [⟨S1x2048x1024, lift (res_main_v52 V0)⟩, ⟨S1x2048x1024, lift (res_main_v100 V0)⟩,
    ⟨S1x2048x1024, lift (res_main_v148 V0)⟩, ⟨S1x2048x1024, lift (res_main_v196 V0)⟩]
    Facts₀.concatenates_S1x2048x1024_S1x2048x1024_S1x2048x1024_S1x2048x1024_S4x2048x1024_d0

end Terms

/-! ## At the extended reals -/

variable (V0 : Valuation τ sig (Elt Ideal))

/-- The argument arrays as the reference is launched with them. -/
def args : Args where
  inp := (V0 (Proc.devRef .tc main_arg0))
  hid := (V0 (Proc.devRef .tc main_arg1))
  pw := (V0 (Proc.devRef .tc main_arg2))
  pb := (V0 (Proc.devRef .tc main_arg3))
  wih := (V0 (Proc.devRef .tc main_arg4))
  whh := (V0 (Proc.devRef .tc main_arg5))
  bih := (V0 (Proc.devRef .tc main_arg6))
  bhh := (V0 (Proc.devRef .tc main_arg7))
  dw := (V0 (Proc.devRef .tc main_arg8))
  db := (V0 (Proc.devRef .tc main_arg9))

theorem proj_at (b : Fin 2048) (k : Fin 1024) : proj V0 (ix2 b k) = (args V0).x0row b k :=
  hostAff_apply _ _ _ _ _ _ _ b k

/-- One layer of the reference at `(b, j)`, whatever the array below it is, once its operands are known entry by entry. -/
theorem rCell_at {l : ℕ} (hl : l < 4) (xin hin : FVec Ideal S2048x1024 .f32) (W U : FVec Ideal S3072x1024 .f32)
    (bb cc : FVec Ideal S3072 .f32) (xr : Fin 1024 → EReal) (b : Fin 2048)
    (hx : ∀ k, xin (ix2 b k) = xr k)
    (hh : ∀ k, hin (ix2 b k) = (args V0).hid (ix3 (⟨l, hl⟩ : Fin 4) b k))
    (hW : ∀ n k, W (ix2 n k) = (args V0).wih (ix3 (⟨l, hl⟩ : Fin 4) n k))
    (hU : ∀ n k, U (ix2 n k) = (args V0).whh (ix3 (⟨l, hl⟩ : Fin 4) n k))
    (hb : ∀ n, bb (ix1 n) = (args V0).bih (ix2 (⟨l, hl⟩ : Fin 4) n))
    (hc : ∀ n, cc (ix1 n) = (args V0).bhh (ix2 (⟨l, hl⟩ : Fin 4) n)) (j : Fin 1024) :
    rCell xin hin W U bb cc (ix2 b j) = (args V0).weights.step ⟨l, hl⟩ xr ((args V0).hrow b ⟨l, hl⟩) j := by
  refine (hostCell_apply _ _ _ _ _ _ _ _ _ _ _ _ _ _ b j).trans ?_
  unfold Weights.step Args.weights Args.hrow
  simp only [hx, hh, hW, hU, hb, hc]

theorem v52_at (b : Fin 2048) (j : Fin 1024) :
    res_main_v52 V0 (ix2 b j) = (args V0).weights.h1 ((args V0).x0row b) ((args V0).hrow b) j := by
  rw [v52_eq]
  exact rCell_at V0 (l := 0) (by omega) _ _ _ _ _ _ ((args V0).x0row b) b (fun k => proj_at V0 b k)
    (fun k => Cert.Lib.hostSlab3 (by omega) _ Facts₀.slices_S4x2048x1024_S1x2048x1024_0_0_0 _ b k)
    (fun n k => Cert.Lib.hostSlab3 (by omega) _ Facts₀.slices_S4x3072x1024_S1x3072x1024_0_0_0 _ n k)
    (fun n k => Cert.Lib.hostSlab3 (by omega) _ Facts₀.slices_S4x3072x1024_S1x3072x1024_0_0_0 _ n k)
    (fun n => Cert.Lib.hostSlab2 (by omega) _ Facts₀.slices_S4x3072_S1x3072_0_0 _ n)
    (fun n => Cert.Lib.hostSlab2 (by omega) _ Facts₀.slices_S4x3072_S1x3072_0_0 _ n) j

theorem v100_at (b : Fin 2048) (j : Fin 1024) :
    res_main_v100 V0 (ix2 b j) = (args V0).weights.h2 ((args V0).x0row b) ((args V0).hrow b) j := by
  rw [v100_eq]
  exact rCell_at V0 (l := 1) (by omega) _ _ _ _ _ _ ((args V0).weights.h1 ((args V0).x0row b) ((args V0).hrow b)) b
    (fun k => v52_at V0 b k)
    (fun k => Cert.Lib.hostSlab3 (by omega) _ Facts₀.slices_S4x2048x1024_S1x2048x1024_1_0_0 _ b k)
    (fun n k => Cert.Lib.hostSlab3 (by omega) _ Facts₀.slices_S4x3072x1024_S1x3072x1024_1_0_0 _ n k)
    (fun n k => Cert.Lib.hostSlab3 (by omega) _ Facts₀.slices_S4x3072x1024_S1x3072x1024_1_0_0 _ n k)
    (fun n => Cert.Lib.hostSlab2 (by omega) _ Facts₀.slices_S4x3072_S1x3072_1_0 _ n)
    (fun n => Cert.Lib.hostSlab2 (by omega) _ Facts₀.slices_S4x3072_S1x3072_1_0 _ n) j

theorem v148_at (b : Fin 2048) (j : Fin 1024) :
    res_main_v148 V0 (ix2 b j) = (args V0).weights.h3 ((args V0).x0row b) ((args V0).hrow b) j := by
  rw [v148_eq]
  exact rCell_at V0 (l := 2) (by omega) _ _ _ _ _ _ ((args V0).weights.h2 ((args V0).x0row b) ((args V0).hrow b)) b
    (fun k => v100_at V0 b k)
    (fun k => Cert.Lib.hostSlab3 (by omega) _ Facts₀.slices_S4x2048x1024_S1x2048x1024_2_0_0 _ b k)
    (fun n k => Cert.Lib.hostSlab3 (by omega) _ Facts₀.slices_S4x3072x1024_S1x3072x1024_2_0_0 _ n k)
    (fun n k => Cert.Lib.hostSlab3 (by omega) _ Facts₀.slices_S4x3072x1024_S1x3072x1024_2_0_0 _ n k)
    (fun n => Cert.Lib.hostSlab2 (by omega) _ Facts₀.slices_S4x3072_S1x3072_2_0 _ n)
    (fun n => Cert.Lib.hostSlab2 (by omega) _ Facts₀.slices_S4x3072_S1x3072_2_0 _ n) j

theorem v196_at (b : Fin 2048) (j : Fin 1024) :
    res_main_v196 V0 (ix2 b j) = (args V0).weights.h4 ((args V0).x0row b) ((args V0).hrow b) j := by
  rw [v196_eq]
  exact rCell_at V0 (l := 3) (by omega) _ _ _ _ _ _ ((args V0).weights.h3 ((args V0).x0row b) ((args V0).hrow b)) b
    (fun k => v148_at V0 b k)
    (fun k => Cert.Lib.hostSlab3 (by omega) _ Facts₀.slices_S4x2048x1024_S1x2048x1024_3_0_0 _ b k)
    (fun n k => Cert.Lib.hostSlab3 (by omega) _ Facts₀.slices_S4x3072x1024_S1x3072x1024_3_0_0 _ n k)
    (fun n k => Cert.Lib.hostSlab3 (by omega) _ Facts₀.slices_S4x3072x1024_S1x3072x1024_3_0_0 _ n k)
    (fun n => Cert.Lib.hostSlab2 (by omega) _ Facts₀.slices_S4x3072_S1x3072_3_0 _ n)
    (fun n => Cert.Lib.hostSlab2 (by omega) _ Facts₀.slices_S4x3072_S1x3072_3_0 _ n) j

/-- The reference's read-outs are the specification's. -/
theorem logits_eq : logitsTerm V0 = (args V0).logits := by
  funext i
  obtain ⟨b, o, rfl⟩ : ∃ (b : Fin 2048) (o : Fin 256), i = ix2 b o := ⟨i 0, i 1, eq_ix2 i⟩
  refine (hostAff_apply _ _ _ _ _ _ _ b o).trans ?_
  unfold Args.logits Weights.out
  simp only [v196_at V0]
  rfl

/-- A new leading unit axis: entry `(0, b, j)` is the array's `(b, j)`. -/
theorem lift_at (v : FVec Ideal S2048x1024 .f32) (u : Fin 1) (b : Fin 2048) (j : Fin 1024) : lift v (ix3 u b j) = v (ix2 b j) :=
  Cert.Lib.addUnit_bcast_at Facts₀.bcast_S2048x1024_S1x2048x1024_1_2 v u b j

/-- Entry `(k, b, j)` of the stack is piece `k` at `(0, b, j)`. -/
theorem stack_at {α : Type} (xs : List ((s : Shape) × (s.Idx → α)))
    (h : Shape.Concatenates (xs.map (·.1)) S4x2048x1024 0) (k : ℕ) (hk4 : k < 4) (hk : k < xs.length)
    (x : S1x2048x1024.Idx → α) (hxk : xs[k] = ⟨S1x2048x1024, x⟩)
    (hpre : (((xs.take k).map (·.1)).map fun s => if h : s.rank = S4x2048x1024.rank then s.size ((0 : Fin S4x2048x1024.rank).cast h.symm) else 0).sum = k)
    (b : Fin 2048) (j : Fin 1024) :
    concatenate S4x2048x1024 0 xs h (ix3 (⟨k, hk4⟩ : Fin 4) b j) = x (ix3 (0 : Fin 1) b j) :=
  concatenate_apply_piece (t := S4x2048x1024) 0 xs h (ix3 (⟨k, hk4⟩ : Fin 4) b j) k hk S1x2048x1024 x hxk rfl k hpre
    (ix3 (0 : Fin 1) b j)
    (fun b' hb' => match b', hb' with
      | ⟨0, _⟩, hb' => absurd rfl hb'
      | ⟨1, _⟩, _ => rfl
      | ⟨2, _⟩, _ => rfl)
    (Nat.add_zero k)

/-- The reference's array of new states is the specification's. -/
theorem hidden_eq : hiddenTerm V0 = (args V0).newHidden := by
  funext i
  obtain ⟨l, b, j, rfl⟩ : ∃ (l : Fin 4) (b : Fin 2048) (j : Fin 1024), i = ix3 l b j := ⟨i 0, i 1, i 2, eq_ix3 i⟩
  match l with
  | ⟨0, h0⟩ =>
    refine (stack_at _ _ 0 h0 (by simp) _ rfl rfl b j).trans ?_
    rw [lift_at, v52_at]; rfl
  | ⟨1, h1⟩ =>
    refine (stack_at _ _ 1 h1 (by simp) _ rfl rfl b j).trans ?_
    rw [lift_at, v100_at]; rfl
  | ⟨2, h2⟩ =>
    refine (stack_at _ _ 2 h2 (by simp) _ rfl rfl b j).trans ?_
    rw [lift_at, v148_at]; rfl
  | ⟨3, h3⟩ =>
    refine (stack_at _ _ 3 h3 (by simp) _ rfl rfl b j).trans ?_
    rw [lift_at, v196_at]; rfl
  | ⟨n + 4, h⟩ => exact absurd h (by omega)

end Cert.ReferenceIdeal.RefValue

end
-- ==== Proof.lean ====
/-
  A stack of four gated recurrent cells with a linear read-out, as a Pallas kernel over tiles of 64 batch rows against a jnp
  reference over all 2048 rows: both results are equal on the extended reals.

  The kernel's program projects the inputs on the host (`x0 = input · i2h_wᵀ + i2h_b`), transposes every weight matrix and
  narrows it to a shorter float format, and launches one pallas_call over 32 grid points. Point `t` is given rows
  `64·t … 64·t + 63` of `x0` and of each layer's previous state, and every weight. For each of the four layers it forms
  `gi = x·Wi + bi` and `gh = h·Wh + bh` on the matrix unit, slices both into three gates, and leaves
  `(1 - z)·n + z·h` with `r = σ(gi_r + gh_r)`, `z = σ(gi_z + gh_z)`, `n = tanh(gi_n + r·gh_n)` as the layer's new state and the
  next layer's input; the last new state's affine image is the read-out. The reference does the same on whole arrays, with
  each layer's weights sliced out of the stacked arguments and transposed by the host, and the logistic function written
  out as `1 / (1 + e^(-u))`.

  On the extended reals a change of float format is the identity, a matrix product is the sum of products over the
  contracted axis whatever unit computes it, and the kernel's logistic function is the reference's expression by
  definition. So both programs compute, for batch row `b`, one and the same expression of row `b` of the inputs, row `b` of
  each previous state and the weights (`Cert.Gru.cell`, `Cert.Gru.Weights.hs`, `Cert.Gru.Weights.out`): no law of arithmetic
  is needed, and the inputs' finiteness is never used. The kernel side reads each grid point's two written-back blocks as
  rows of the specification's arrays and lets the 32 blocks tile them; the reference side reads its run's named stages
  as the same rows.
-/
import proofs.«165582_j62508954026437_2_alg».proof.Defs
import proofs.«165582_j62508954026437_2_alg».proof.Proof.Gen.Kernel
import proofs.«165582_j62508954026437_2_alg».proof.Proof.Gen.Kernel.Frame
import proofs.«165582_j62508954026437_2_alg».proof.Proof.Gen.KernelIdeal
import proofs.«165582_j62508954026437_2_alg».proof.Proof.Gen.KernelIdeal.Frame
import proofs.«165582_j62508954026437_2_alg».proof.Proof.Gen.KernelIdeal.Value
import proofs.«165582_j62508954026437_2_alg».proof.Proof.Gen.ReferenceIdeal
import proofs.«165582_j62508954026437_2_alg».proof.Proof.Gen.ReferenceIdeal.Run
import proofs.«165582_j62508954026437_2_alg».proof.Proof.Gen.Pre_finite_inputs
import proofs.«165582_j62508954026437_2_alg».proof.Proof.KernelBlocks
import proofs.«165582_j62508954026437_2_alg».proof.Proof.KernelHost
import proofs.«165582_j62508954026437_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo Cert.Gru

/-- Two lists of argument arrays that agree array by array are one list. -/
theorem args_congr {i i' : FVec Ideal ⟨2, ![2048, 4]⟩ .f32} {h h' : FVec Ideal ⟨3, ![4, 2048, 1024]⟩ .f32}
    {pw pw' : FVec Ideal ⟨2, ![1024, 4]⟩ .f32} {pb pb' : FVec Ideal ⟨1, ![1024]⟩ .f32}
    {wi wi' wh wh' : FVec Ideal ⟨3, ![4, 3072, 1024]⟩ .f32} {bi bi' bh bh' : FVec Ideal ⟨2, ![4, 3072]⟩ .f32}
    {dw dw' : FVec Ideal ⟨2, ![256, 1024]⟩ .f32} {db db' : FVec Ideal ⟨1, ![256]⟩ .f32}
    (e0 : i = i') (e1 : h = h') (e2 : pw = pw') (e3 : pb = pb') (e4 : wi = wi') (e5 : wh = wh') (e6 : bi = bi') (e7 : bh = bh')
    (e8 : dw = dw') (e9 : db = db') :
    Args.mk i h pw pb wi wh bi bh dw db = Args.mk i' h' pw' pb' wi' wh' bi' bh' dw' db' := by
  rw [e0, e1, e2, e3, e4, e5, e6, e7, e8, e9]

/-- The three programs run to the end without a fault and leave their arguments as they were: the two kernels' programs by
    the generated frame runs, the reference by its run with the results dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the read-outs and the new states at the
    specification's two arrays of those arguments. -/
theorem algebraic : Cert.algebraic_KernelIdeal_ReferenceIdeal := by
  intro m ρ m' ρ' _ hagree
  refine ⟨fun c => (Cert.KernelIdeal.HostSide.args m c).logits, fun c => (Cert.KernelIdeal.HostSide.args m c).newHidden, ?_, ?_⟩
  · exact (θ_run Cert.KernelIdeal.defs _ _).mono (fun r h c =>
      ⟨(h c).2.1.trans ((Cert.KernelIdeal.Blocks.final9 m c).trans (Cert.KernelIdeal.HostSide.results_eq m c).2),
        (h c).1.trans ((Cert.KernelIdeal.Blocks.final8 m c).trans (Cert.KernelIdeal.HostSide.results_eq m c).1),
        (h c).2.2⟩) (Cert.KernelIdeal.Value.run_blocks (F := Ideal) m ρ)
  · have hargs : ∀ c, Cert.ReferenceIdeal.RefValue.args (launchContents m' c) = Cert.KernelIdeal.HostSide.args m c := fun c => by
      obtain ⟨a0, a1, a2, a3, a4, a5, a6, a7, a8, a9⟩ := hagree c
      exact args_congr a0 a1 a2 a3 a4 a5 a6 a7 a8 a9
    exact (θ_run Cert.ReferenceIdeal.defs _ _).mono (fun r h c =>
      ⟨(h c).1.trans ((Cert.ReferenceIdeal.RefValue.logits_eq (launchContents m' c)).trans (congrArg Args.logits (hargs c))),
        (h c).2.1.trans ((Cert.ReferenceIdeal.RefValue.hidden_eq (launchContents m' c)).trans (congrArg Args.newHidden (hargs c))),
        (h c).2.2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
